-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S3x1024 : Shape := ⟨2, ![3, 1024]⟩
abbrev S3 : Shape := ⟨1, ![3]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S3x1024 : S_.BroadcastsInDim S3x1024 (![] : Fin 0 → Fin S3x1024.rank)
  reducesTo_S3x1024_S_d0_1 : S3x1024.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_v13 : IVec S_ 1) (main_v16 : IVec S3 1) : IVec S_ 1 :=
  let main_c_5 : IVec S_ 1 := constantI S_ 1 1#1
  let main_v17 : IVec S_ 1 := (fun x v => Host.reduce IntOp.andi x v reducesTo_S3_S_d0 h_S_) main_v16 main_c_5
  let main_v18 : IVec S_ 1 := andi main_v13 main_v17
  main_v18

def fn {F : FTy → Type} [FloatOps F] (main_arg0 : FVec F S8192x1024 .f32) (main_arg1 : FVec F S8192x1024 .f32) (main_arg2 : FVec F S3x1024 .f32) (main_arg3 : FVec F S3 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S3x1024 .f32 := Host.absf main_arg2
  let main_cst_2 : FVec F S_ .f32 := constant S_ .f32 0x7F800000#32
  let main_v10 : FVec F S3x1024 .f32 := broadcastInDim S3x1024 ![] bcast_S_S3x1024 main_cst_2
  let main_v11 : IVec S3x1024 1 := cmpf .olt main_v9 main_v10
  let main_c_3 : IVec S_ 1 := constantI S_ 1 1#1
  let main_v12 : IVec S_ 1 := (fun x v => Host.reduce IntOp.andi x v reducesTo_S3x1024_S_d0_1 h_S_) main_v11 main_c_3
  let main_v13 : IVec S_ 1 := andi main_v8 main_v12
  let main_v14 : FVec F S3 .f32 := Host.absf main_arg3
  let main_cst_4 : FVec F S_ .f32 := constant S_ .f32 0x7F800000#32
  let main_v15 : FVec F S3 .f32 := broadcastInDim S3 ![] bcast_S_S3 main_cst_4
  let main_v16 : IVec S3 1 := cmpf .olt main_v14 main_v15
  fn_part1 (F := F) main_v13 main_v16
-- ==== Kernel.lean ====
abbrev S8192x1024 : Shape := ⟨2, ![8192, 1024]⟩
abbrev S3x1024 : Shape := ⟨2, ![3, 1024]⟩
abbrev S3 : Shape := ⟨1, ![3]⟩
abbrev S1024x3 : Shape := ⟨2, ![1024, 3]⟩
abbrev S8192x3 : Shape := ⟨2, ![8192, 3]⟩
abbrev S1x3 : Shape := ⟨2, ![1, 3]⟩
abbrev S_ : Shape := ⟨0, ![]⟩
abbrev S8192x1 : Shape := ⟨2, ![8192, 1]⟩
abbrev S1024x1024 : Shape := ⟨2, ![1024, 1024]⟩
abbrev S1024x1 : Shape := ⟨2, ![1024, 1]⟩
abbrev S1024 : Shape := ⟨1, ![1024]⟩
abbrev S8192x8192 : Shape := ⟨2, ![8192, 8192]⟩

abbrev nBuf : Space → Nat
  | .hbm => 44
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S3x1024, .f32⟩
  | .hbm, ⟨3, _⟩ => ⟨S3, .f32⟩
  | .hbm, ⟨4, _⟩ => ⟨S1024x3, .f32⟩
  | .hbm, ⟨5, _⟩ => ⟨S8192x3, .f32⟩
  | .hbm, ⟨6, _⟩ => ⟨S1x3, .f32⟩
  | .hbm, ⟨7, _⟩ => ⟨S8192x3, .f32⟩
  | .hbm, ⟨8, _⟩ => ⟨S8192x3, .f32⟩
  | .hbm, ⟨9, _⟩ => ⟨S8192x3, .f32⟩
  | .hbm, ⟨10, _⟩ => ⟨S8192x3, .f32⟩
  | .hbm, ⟨11, _⟩ => ⟨S_, .f32⟩
  | .hbm, ⟨12, _⟩ => ⟨S8192x3, .f32⟩
  | .hbm, ⟨13, _⟩ => ⟨S8192x3, .f32⟩
  | .hbm, ⟨14, _⟩ => ⟨S_, .f32⟩
  | .hbm, ⟨15, _⟩ => ⟨S8192x3, .f32⟩
  | .hbm, ⟨16, _⟩ => ⟨S8192x3, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S8192x3, .f32⟩
  | .hbm, ⟨21, _⟩ => ⟨S8192x3, .f32⟩
  | .hbm, ⟨22, _⟩ => ⟨S_, .f32⟩
  | .hbm, ⟨23, _⟩ => ⟨S8192x3, .f32⟩
  | .hbm, ⟨24, _⟩ => ⟨S8192x3, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1024, .bf16⟩
  | .hbm, ⟨37, _⟩ => ⟨S8192x1024, .bf16⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x8192, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1, .f32⟩
  | .local _ .vmem, ⟨5, _⟩ => ⟨S1024x1, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | .local _ .vmem, ⟨16, _⟩ => ⟨S1024x1024, .f32⟩
  | .local _ .vmem, ⟨17, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_cst_2 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1024x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  transposes_S3x1024_S1024x3_1_0 : S3x1024.Transposes [1, 0] S1024x3
  bcast_S3_S1x3_1 : S3.BroadcastsInDim S1x3 (![1] : Fin 1 → Fin S1x3.rank)
  bcast_S1x3_S8192x3_0_1 : S1x3.BroadcastsInDim S8192x3 (![0, 1] : Fin 2 → Fin S8192x3.rank)
  bcast_S_S8192x3 : S_.BroadcastsInDim S8192x3 (![] : Fin 0 → Fin S8192x3.rank)
  slices_S8192x3_S8192x1_0_0 : S8192x3.Slices ![0, 0] S8192x1
  slices_S8192x3_S8192x1_0_1 : S8192x3.Slices ![0, 1] S8192x1
  slices_S8192x3_S8192x1_0_2 : S8192x3.Slices ![0, 2] S8192x1
  bcast_S_S8192x1 : S_.BroadcastsInDim S8192x1 (![] : Fin 0 → Fin S8192x1.rank)
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  transposes_S1024x1024_p1_0_S1024x1024 : S1024x1024.Transposes [1, 0] S1024x1024
  reduces_S1024x1024_S1024 : S1024x1024.Reduces [1] S1024
  shapeCasts_S1024_S1024x1 : S1024.ShapeCasts S1024x1
  shapeCasts_S1024x1_S1024x1 : S1024x1.ShapeCasts S1024x1
  broadcasts_S1024x1_S1024x1024 : S1024x1.Broadcasts S1024x1024
  dot_S8192x1024_S1024x3_S8192x3_1_0_0_1_n_n_wf : DotDims.WF S8192x1024 S1024x3 S8192x3 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .bf16 = 32 ∨ (Rect.block (s := S8192x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x1024.size a
  hwx0_1 : ∀ i : grid0.Coords, EltTy.bits .bf16 = 32 ∨ (Rect.block (s := S8192x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .bf16 = 32 ∨ (Rect.block (s := S8192x1024) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S8192x1024.size a
  hwx1_1 : ∀ i : grid1.Coords, EltTy.bits .bf16 = 32 ∨ (Rect.block (s := S8192x1024) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S8192x1.size a
  hwx1_3 : ∀ i : grid1.Coords, EltTy.bits .f32 = 32 ∨ (Rect.block (s := S8192x1) S1024x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1.size a ≤ S8192x1.size a
  hwx1_4 : ∀ i : grid1.Coords, EltTy.bits .f32 = 32 ∨ (Rect.block (s := S8192x1) S1024x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x1024.size a ≤ S8192x8192.size a
  hwx1_5 : ∀ i : grid1.Coords, EltTy.bits .f32 = 32 ∨ (Rect.block (s := S8192x8192) S1024x1024.size (cc1_transform_5 i) (hinb1_5 i)).WholeWords (EltTy.packing .f32)

variable [Facts₀]

def dot_S8192x1024_S1024x3_S8192x3_1_0_0_1_n_n : DotDims S8192x1024 S1024x3 S8192x3 where
  lhsContracting := [1]
  rhsContracting := [0]
  lhsNonContracting := [0]
  rhsNonContracting := [1]
  lhsBatch := []
  rhsBatch := []
  wf := dot_S8192x1024_S1024x3_S8192x3_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v21) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v21) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1024x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v20) S1024x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v27) S1024x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8192x1024 : Shape := ⟨2, ![8192, 1024]⟩
abbrev S3x1024 : Shape := ⟨2, ![3, 1024]⟩
abbrev S3 : Shape := ⟨1, ![3]⟩
abbrev S1024x3 : Shape := ⟨2, ![1024, 3]⟩
abbrev S8192x3 : Shape := ⟨2, ![8192, 3]⟩
abbrev S1x3 : Shape := ⟨2, ![1, 3]⟩
abbrev S_ : Shape := ⟨0, ![]⟩
abbrev S8192x1 : Shape := ⟨2, ![8192, 1]⟩
abbrev S1024x8192 : Shape := ⟨2, ![1024, 8192]⟩
abbrev S8192x8192 : Shape := ⟨2, ![8192, 8192]⟩
abbrev S8192 : Shape := ⟨1, ![8192]⟩

abbrev nBuf : Space → Nat
  | .hbm => 84
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S3x1024, .f32⟩
  | .hbm, ⟨3, _⟩ => ⟨S3, .f32⟩
  | .hbm, ⟨4, _⟩ => ⟨S1024x3, .f32⟩
  | .hbm, ⟨5, _⟩ => ⟨S8192x3, .f32⟩
  | .hbm, ⟨6, _⟩ => ⟨S1x3, .f32⟩
  | .hbm, ⟨7, _⟩ => ⟨S8192x3, .f32⟩
  | .hbm, ⟨8, _⟩ => ⟨S8192x3, .f32⟩
  | .hbm, ⟨9, _⟩ => ⟨S8192x3, .f32⟩
  | .hbm, ⟨10, _⟩ => ⟨S8192x3, .f32⟩
  | .hbm, ⟨11, _⟩ => ⟨S_, .f32⟩
  | .hbm, ⟨12, _⟩ => ⟨S8192x3, .f32⟩
  | .hbm, ⟨13, _⟩ => ⟨S8192x3, .f32⟩
  | .hbm, ⟨14, _⟩ => ⟨S_, .f32⟩
  | .hbm, ⟨15, _⟩ => ⟨S8192x3, .f32⟩
  | .hbm, ⟨16, _⟩ => ⟨S8192x3, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S8192x3, .f32⟩
  | .hbm, ⟨21, _⟩ => ⟨S8192x3, .f32⟩
  | .hbm, ⟨22, _⟩ => ⟨S_, .f32⟩
  | .hbm, ⟨23, _⟩ => ⟨S8192x3, .f32⟩
  | .hbm, ⟨24, _⟩ => ⟨S8192x3, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S1024x8192, .f32⟩
  | .hbm, ⟨34, _⟩ => ⟨S8192x8192, .f32⟩
  | .hbm, ⟨35, _⟩ => ⟨S_, .f32⟩
  | .hbm, ⟨36, _⟩ => ⟨S8192x8192, .f32⟩
  | .hbm, ⟨37, _⟩ => ⟨S8192x8192, .f32⟩
  | .hbm, ⟨38, _⟩ => ⟨S_, .f32⟩
  | .hbm, ⟨39, _⟩ => ⟨S8192x8192, .f32⟩
  | .hbm, ⟨40, _⟩ => ⟨S8192x8192, .f32⟩
  | .hbm, ⟨41, _⟩ => ⟨S_, .f32⟩
  | .hbm, ⟨42, _⟩ => ⟨S8192x8192, .f32⟩
  | .hbm, ⟨43, _⟩ => ⟨S8192x8192, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S8192x8192, .f32⟩
  | .hbm, ⟨55, _⟩ => ⟨S8192x8192, .f32⟩
  | .hbm, ⟨56, _⟩ => ⟨S8192x8192, .f32⟩
  | .hbm, ⟨57, _⟩ => ⟨S8192x8192, .f32⟩
  | .hbm, ⟨58, _⟩ => ⟨S8192x8192, .f32⟩
  | .hbm, ⟨59, _⟩ => ⟨S_, .f32⟩
  | .hbm, ⟨60, _⟩ => ⟨S8192x8192, .f32⟩
  | .hbm, ⟨61, _⟩ => ⟨S8192x8192, .f32⟩
  | .hbm, ⟨62, _⟩ => ⟨S8192x8192, .f32⟩
  | .hbm, ⟨63, _⟩ => ⟨S8192x8192, .f32⟩
  | .hbm, ⟨64, _⟩ => ⟨S8192x8192, .f32⟩
  | .hbm, ⟨65, _⟩ => ⟨S8192x8192, .f32⟩
  | .hbm, ⟨66, _⟩ => ⟨S8192x8192, .f32⟩
  | .hbm, ⟨67, _⟩ => ⟨S_, .f32⟩
  | .hbm, ⟨68, _⟩ => ⟨S8192x8192, .f32⟩
  | .hbm, ⟨69, _⟩ => ⟨S8192x8192, .f32⟩
  | .hbm, ⟨70, _⟩ => ⟨S8192x8192, .f32⟩
  | .hbm, ⟨71, _⟩ => ⟨S8192x8192, .f32⟩
  | .hbm, ⟨72, _⟩ => ⟨S8192x8192, .f32⟩
  | .hbm, ⟨73, _⟩ => ⟨S8192x8192, .i1⟩
  | .hbm, ⟨74, _⟩ => ⟨S_, .f32⟩
  | .hbm, ⟨75, _⟩ => ⟨S_, .f32⟩
  | .hbm, ⟨76, _⟩ => ⟨S8192x8192, .f32⟩
  | .hbm, ⟨77, _⟩ => ⟨S8192x8192, .f32⟩
  | .hbm, ⟨78, _⟩ => ⟨S8192x8192, .f32⟩
  | .hbm, ⟨79, _⟩ => ⟨S8192x8192, .i1⟩
  | .hbm, ⟨80, _⟩ => ⟨S_, .f32⟩
  | .hbm, ⟨81, _⟩ => ⟨S_, .f32⟩
  | .hbm, ⟨82, _⟩ => ⟨S8192x8192, .f32⟩
  | .hbm, ⟨83, _⟩ => ⟨S8192x8192, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_cst_2 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_8 : Ref sig .tc := ⟨.hbm, 48, rfl⟩
abbrev main_v30 : Ref sig .tc := ⟨.hbm, 49, rfl⟩
abbrev main_v31 : Ref sig .tc := ⟨.hbm, 50, rfl⟩
abbrev main_cst_9 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_10 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_11 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_12 : Ref sig .tc := ⟨.hbm, 74, rfl⟩
abbrev main_call1_v0 : Ref sig .tc := ⟨.hbm, 75, rfl⟩
abbrev main_call1_v1 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_13 : Ref sig .tc := ⟨.hbm, 80, rfl⟩
abbrev main_call2_v0 : Ref sig .tc := ⟨.hbm, 81, rfl⟩
abbrev main_call2_v1 : Ref sig .tc := ⟨.hbm, 82, rfl⟩
abbrev main_v55 : Ref sig .tc := ⟨.hbm, 83, rfl⟩

abbrev nD : Nat := 1
abbrev τ : Topo := Topo.v7x

variable {F : FTy → Type} [FloatOps F]

class Facts₀ : Prop where
  transposes_S3x1024_S1024x3_1_0 : S3x1024.Transposes [1, 0] S1024x3
  bcast_S3_S1x3_1 : S3.BroadcastsInDim S1x3 (![1] : Fin 1 → Fin S1x3.rank)
  bcast_S1x3_S8192x3_0_1 : S1x3.BroadcastsInDim S8192x3 (![0, 1] : Fin 2 → Fin S8192x3.rank)
  bcast_S_S8192x3 : S_.BroadcastsInDim S8192x3 (![] : Fin 0 → Fin S8192x3.rank)
  slices_S8192x3_S8192x1_0_0 : S8192x3.Slices ![0, 0] S8192x1
  slices_S8192x3_S8192x1_0_1 : S8192x3.Slices ![0, 1] S8192x1
  slices_S8192x3_S8192x1_0_2 : S8192x3.Slices ![0, 2] S8192x1
  bcast_S_S8192x1 : S_.BroadcastsInDim S8192x1 (![] : Fin 0 → Fin S8192x1.rank)
  transposes_S8192x1024_S1024x8192_1_0 : S8192x1024.Transposes [1, 0] S1024x8192
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x1024_S1024x3_S8192x3_1_0_0_1_n_n_wf : DotDims.WF S8192x1024 S1024x3 S8192x3 [1] [0] [0] [1] [] []
  dot_S8192x1024_S1024x8192_S8192x8192_1_0_0_1_n_n_wf : DotDims.WF S8192x1024 S1024x8192 S8192x8192 [1] [0] [0] [1] [] []

variable [Facts₀]

def dot_S8192x1024_S1024x3_S8192x3_1_0_0_1_n_n : DotDims S8192x1024 S1024x3 S8192x3 where
  lhsContracting := [1]
  rhsContracting := [0]
  lhsNonContracting := [0]
  rhsNonContracting := [1]
  lhsBatch := []
  rhsBatch := []
  wf := dot_S8192x1024_S1024x3_S8192x3_1_0_0_1_n_n_wf
def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf

class Facts : Prop extends Facts₀ where

variable [Facts]
-- ==== Proof.Spec.lean ====
/-
  The score both programs compute, entry by entry, over the extended reals.

  For rows x[i,·] and x_n[j,·] (1024 entries each) the similarity is the dot product scaled into [0, 1]:
      sim i j = ((∑ₖ x[i,k]·x_n[j,k]) / 1024 + 1024) / 2048
  written once with the products by 2⁻¹⁰ and 2⁻¹¹ (`simK`) and once with the quotients by 1024 and 2048 (`simR`).
  Row i's largest similarity is the maximum over all 8192 columns, folded from -∞ (`rowMaxOf`).
  From the clipped parameters P[i,0..2] = (a₀, b₀, n₀) the row's thresholds and exponent are
      a = min a₀ (row maximum) - ε,   b = a₀ + b₀·(1 - a₀),   n = 1 / n₀,
  and the entry's score is (`cell`)
      1                                  if sim > b,
      0                                  if sim < a,
      u / (u + v)   otherwise, with u = max (|sim - a| ^ n) ε and v = max (|b - sim| ^ n) ε.
  The power is a parameter of `cell`: the product form takes it as exp (n · log d) (`pwK`), the quotient form as
  the power function itself.
-/
import Idealize.ShloMosaic.PureOps.Ideal
import Idealize.ShloMosaic.Lib.ValueIdx

noncomputable section

namespace Cert.Bridge

open Idealize.ShloMosaic Idealize.ShloMosaic.ValueIdx

/-- The two feature matrices' shape, the clipped parameters', a column's and the score's. -/
abbrev SX : Shape := ⟨2, ![8192, 1024]⟩
abbrev SP : Shape := ⟨2, ![8192, 3]⟩
abbrev SC : Shape := ⟨2, ![8192, 1]⟩
abbrev SO : Shape := ⟨2, ![8192, 8192]⟩

/-- ε, the f32 nearest to 10⁻¹²; the same word in both programs. -/
abbrev eps : EReal := Ideal.ofBits .f32 0x2B8CBCCC#32
/-- 1.0 and 0.0. -/
abbrev one : EReal := Ideal.ofBits .f32 0x3F800000#32
abbrev zero : EReal := Ideal.ofBits .f32 0x00000000#32
/-- -∞, the value every maximum is folded from. -/
abbrev negInf : EReal := Ideal.ofBits .f32 0xFF800000#32

/-- Row i of x against row j of x_n: the dot product over the 1024 features. -/
def dot (x xn : SX.Idx → EReal) (i j : Fin 8192) : EReal := ∑ k : Fin 1024, x (ix2 i k) * xn (ix2 j k)

/-- The normalised similarity with the scalings as products by 2⁻¹⁰ and 2⁻¹¹. -/
def simK (x xn : SX.Idx → EReal) (i j : Fin 8192) : EReal :=
  (dot x xn i j * Ideal.ofBits .f32 0x3A800000#32 - Ideal.ofBits .f32 0xC4800000#32) * Ideal.ofBits .f32 0x3A000000#32

/-- The normalised similarity with the scalings as quotients by 1024 and 2048. -/
def simR (x xn : SX.Idx → EReal) (i j : Fin 8192) : EReal :=
  Ideal.div (Ideal.div (dot x xn i j) (Ideal.ofBits .f32 0x44800000#32) - Ideal.ofBits .f32 0xC4800000#32)
    (Ideal.ofBits .f32 0x45000000#32)

/-- The largest entry of row i, folded from -∞ over the 8192 columns. -/
def rowMaxOf (s : Fin 8192 → Fin 8192 → EReal) (i : Fin 8192) : EReal :=
  (Finset.univ : Finset (Fin 8192)).fold max negInf (fun j => s i j)

/-- The power as the exponential of the exponent times the logarithm. -/
def pwK (d n : EReal) : EReal := Ideal.exp (n * Ideal.log d)

/-- One entry's score from its similarity s, the thresholds a and b, and the exponent n, with the power pw. -/
def cell (pw : EReal → EReal → EReal) (s a b n : EReal) : EReal :=
  Scalar.select (FloatOps.cmpf (F := Ideal) (φ := .f32) .ogt s b) one
    (Scalar.select (FloatOps.cmpf (F := Ideal) (φ := .f32) .olt s a) zero
      (Ideal.div (max (pw (FloatOps.absf (F := Ideal) (φ := .f32) (s - a)) n) eps)
        (max (pw (FloatOps.absf (F := Ideal) (φ := .f32) (s - a)) n) eps
          + max (pw (FloatOps.absf (F := Ideal) (φ := .f32) (b - s)) n) eps)))

/-- The lower threshold of row i: the smaller of a₀ and the row's largest similarity, less ε. -/
def thrA (P : SP.Idx → EReal) (rm : Fin 8192 → EReal) (i : Fin 8192) : EReal := min (P (ix2 i 0)) (rm i) - eps
/-- The upper threshold of row i: a₀ + b₀ · (1 - a₀). -/
def thrB (P : SP.Idx → EReal) (i : Fin 8192) : EReal := P (ix2 i 0) + P (ix2 i 1) * (one - P (ix2 i 0))
/-- The exponent of row i: 1 / n₀. -/
def expo (P : SP.Idx → EReal) (i : Fin 8192) : EReal := Ideal.div one (P (ix2 i 2))

/-- The whole score array from a similarity function and the clipped parameters. -/
def scoreOf (pw : EReal → EReal → EReal) (s : Fin 8192 → Fin 8192 → EReal) (P : SP.Idx → EReal) : SO.Idx → EReal :=
  fun y => cell pw (s (y 0) (y 1)) (thrA P (rowMaxOf s) (y 0)) (thrB P (y 0)) (expo P (y 0))

/-- The product-and-exp-log form. -/
def scoreK (x xn : SX.Idx → EReal) (P : SP.Idx → EReal) : SO.Idx → EReal := scoreOf pwK (simK x xn) P
/-- The quotient-and-power form. -/
def scoreR (x xn : SX.Idx → EReal) (P : SP.Idx → EReal) : SO.Idx → EReal := scoreOf Ideal.pow (simR x xn) P

/-- The row maxima as a column [8192, 1]. -/
def rowMaxCol (x xn : SX.Idx → EReal) : SC.Idx → EReal := fun y => rowMaxOf (simK x xn) (y 0)

/-- The score from the similarity in product form and three columns already computed: the lower threshold a, the
    upper threshold b and the exponent n of each row. -/
def scoreCols (x xn : SX.Idx → EReal) (a b n : SC.Idx → EReal) : SO.Idx → EReal :=
  fun y => cell pwK (simK x xn (y 0) (y 1)) (a (ix2 (y 0) 0)) (b (ix2 (y 0) 0)) (n (ix2 (y 0) 0))

end Cert.Bridge

end
-- ==== Proof.HostSide.lean ====
/-
  The host operations of the kernel program, read at an entry.

  Between the launch and the first grid computation the host computes the clipped parameters P (a sigmoid of a
  Linear layer, clipped into [ε, 1]), slices its three columns a₀, b₀, n₀, forms b = a₀ + b₀·(1 - a₀) and n = 1 / n₀,
  and converts x and x_n to bf16 (the identity on extended reals). Between the two grid computations it forms
  a = min a₀ (row maxima) - ε. Each stretch is read from ANY buffer contents it starts from:
    * row i of a is  min (a₀ i) (row maximum i) - ε,
    * row i of b is  a₀ i + b₀ i · (1 - a₀ i)  and row i of n is  1 / n₀ i  of the clipped parameters,
    * the converted x and x_n are x and x_n,
  and a buffer no operation of a stretch writes is as it was.
-/
import proofs.«153212_j9964324127268_2_alg».proof.Proof.Gen.KernelIdeal.Frame
import proofs.«153212_j9964324127268_2_alg».proof.Proof.Spec
import Idealize.ShloMosaic.Lib.StableHlo.Run
import Idealize.ShloMosaic.Lib.ValueIdx
import Idealize.ShloMosaic.Lib.Pipeline.Value

noncomputable section

namespace Cert.KernelIdeal.HostSide

open Idealize.ShloMosaic Idealize.ShloMosaic.TcCoe Idealize.SL.Sem Idealize.ShloMosaic.StableHlo
open Idealize.ShloMosaic.ValueIdx
open Cert.KernelIdeal Cert.KernelIdeal.Gen

variable (Wp : Valuation τ sig (Elt Ideal))

/-! ## The stretch between the two grid computations -/

/-- Row i of the lower threshold: the smaller of a₀ and the row maximum, less ε. -/
theorem thrA_at (i : Fin 8192) :
    (StableHlo.after (hostOps1 (F := Ideal)) Wp (Proc.devRef .tc main_v26) (ix2 i (0 : Fin 1)) : EReal)
      = min (α := EReal) (Wp (Proc.devRef .tc main_v12) (ix2 i (0 : Fin 1))) (Wp (Proc.devRef .tc main_v23) (ix2 i (0 : Fin 1)))
          - Cert.Bridge.eps := by
  have e : StableHlo.after (hostOps1 (F := Ideal)) Wp (Proc.devRef .tc main_v26)
      = subf (minimumf (Wp (Proc.devRef .tc main_v12)) (Wp (Proc.devRef .tc main_v23)))
          (broadcastInDim S8192x1 ![] bcast_S_S8192x1 (constant (F := Ideal) S_ .f32 0x2B8CBCCC#32)) := by
    after_results <;> rfl
  rw [e]
  show min _ _ - broadcastInDim S8192x1 ![] bcast_S_S8192x1 (constant (F := Ideal) S_ .f32 0x2B8CBCCC#32) (ix2 i (0 : Fin 1)) = _
  rw [broadcastInDim_apply _ bcast_S_S8192x1 _ (ix2 i (0 : Fin 1)) ix0 (fun a => a.elim0)]
  rfl

theorem keep1_v18 : StableHlo.after (hostOps1 (F := Ideal)) Wp (Proc.devRef .tc main_v18) = Wp (Proc.devRef .tc main_v18) := by
  after_results <;> rfl
theorem keep1_v20 : StableHlo.after (hostOps1 (F := Ideal)) Wp (Proc.devRef .tc main_v20) = Wp (Proc.devRef .tc main_v20) := by
  after_results <;> rfl
theorem keep1_v21 : StableHlo.after (hostOps1 (F := Ideal)) Wp (Proc.devRef .tc main_v21) = Wp (Proc.devRef .tc main_v21) := by
  after_results <;> rfl
theorem keep1_v22 : StableHlo.after (hostOps1 (F := Ideal)) Wp (Proc.devRef .tc main_v22) = Wp (Proc.devRef .tc main_v22) := by
  after_results <;> rfl

/-! ## Columns of the clipped parameters, and a broadcast constant, at an entry -/

theorem slice0_at {α : Type} (P : S8192x3.Idx → α) (i : Fin 8192) :
    extractStridedSlice S8192x1 ![0, 0] P slices_S8192x3_S8192x1_0_0 (ix2 i (0 : Fin 1)) = P (ix2 i (0 : Fin 3)) :=
  extractStridedSlice_apply ![0, 0] P slices_S8192x3_S8192x1_0_0 (ix2 i (0 : Fin 1)) (ix2 i (0 : Fin 3)) (fun a => match a with
    | ⟨0, _⟩ => by show i.val = 0 + i.val; omega
    | ⟨1, _⟩ => by show ((0 : Fin 3) : ℕ) = 0 + ((0 : Fin 1) : ℕ); rfl)

theorem slice1_at {α : Type} (P : S8192x3.Idx → α) (i : Fin 8192) :
    extractStridedSlice S8192x1 ![0, 1] P slices_S8192x3_S8192x1_0_1 (ix2 i (0 : Fin 1)) = P (ix2 i (1 : Fin 3)) :=
  extractStridedSlice_apply ![0, 1] P slices_S8192x3_S8192x1_0_1 (ix2 i (0 : Fin 1)) (ix2 i (1 : Fin 3)) (fun a => match a with
    | ⟨0, _⟩ => by show i.val = 0 + i.val; omega
    | ⟨1, _⟩ => by show ((1 : Fin 3) : ℕ) = 1 + ((0 : Fin 1) : ℕ); rfl)

theorem slice2_at {α : Type} (P : S8192x3.Idx → α) (i : Fin 8192) :
    extractStridedSlice S8192x1 ![0, 2] P slices_S8192x3_S8192x1_0_2 (ix2 i (0 : Fin 1)) = P (ix2 i (2 : Fin 3)) :=
  extractStridedSlice_apply ![0, 2] P slices_S8192x3_S8192x1_0_2 (ix2 i (0 : Fin 1)) (ix2 i (2 : Fin 3)) (fun a => match a with
    | ⟨0, _⟩ => by show i.val = 0 + i.val; omega
    | ⟨1, _⟩ => by show ((2 : Fin 3) : ℕ) = 2 + ((0 : Fin 1) : ℕ); rfl)

theorem bcast_const_at (w : BitVec 32) (i : Fin 8192) :
    broadcastInDim S8192x1 ![] bcast_S_S8192x1 (constant (F := Ideal) S_ .f32 w) (ix2 i (0 : Fin 1)) = Ideal.ofBits .f32 w :=
  (broadcastInDim_apply _ bcast_S_S8192x1 (constant (F := Ideal) S_ .f32 w) (ix2 i (0 : Fin 1)) ix0 (fun a => a.elim0)).trans rfl

/-! ## The stretch before the first grid computation -/

/-- a₀ + b₀ · (1 - a₀), read at row i. -/
theorem thrB_read (P : FVec Ideal S8192x3 .f32) (i : Fin 8192) :
    addf (extractStridedSlice S8192x1 ![0, 0] P slices_S8192x3_S8192x1_0_0)
        (mulf (extractStridedSlice S8192x1 ![0, 1] P slices_S8192x3_S8192x1_0_1)
          (subf (broadcastInDim S8192x1 ![] bcast_S_S8192x1 (constant (F := Ideal) S_ .f32 0x3F800000#32))
            (extractStridedSlice S8192x1 ![0, 0] P slices_S8192x3_S8192x1_0_0))) (ix2 i (0 : Fin 1))
      = Cert.Bridge.thrB P i := by
  show extractStridedSlice S8192x1 ![0, 0] P slices_S8192x3_S8192x1_0_0 (ix2 i (0 : Fin 1))
      + extractStridedSlice S8192x1 ![0, 1] P slices_S8192x3_S8192x1_0_1 (ix2 i (0 : Fin 1))
        * (broadcastInDim S8192x1 ![] bcast_S_S8192x1 (constant (F := Ideal) S_ .f32 0x3F800000#32) (ix2 i (0 : Fin 1))
          - extractStridedSlice S8192x1 ![0, 0] P slices_S8192x3_S8192x1_0_0 (ix2 i (0 : Fin 1))) = _
  rw [slice0_at, slice1_at, bcast_const_at]
  rfl

/-- 1 / n₀, read at row i. -/
theorem expo_read (P : FVec Ideal S8192x3 .f32) (i : Fin 8192) :
    Host.divf (broadcastInDim S8192x1 ![] bcast_S_S8192x1 (constant (F := Ideal) S_ .f32 0x3F800000#32))
        (extractStridedSlice S8192x1 ![0, 2] P slices_S8192x3_S8192x1_0_2) (ix2 i (0 : Fin 1))
      = Cert.Bridge.expo P i := by
  show Ideal.div (broadcastInDim S8192x1 ![] bcast_S_S8192x1 (constant (F := Ideal) S_ .f32 0x3F800000#32) (ix2 i (0 : Fin 1)))
      (extractStridedSlice S8192x1 ![0, 2] P slices_S8192x3_S8192x1_0_2 (ix2 i (0 : Fin 1))) = _
  rw [slice2_at, bcast_const_at]
  rfl

/-- Row i of a₀ is the clipped parameters' column 0. -/
theorem a0_at (i : Fin 8192) :
    (StableHlo.after (hostOps0_2 (F := Ideal)) Wp (Proc.devRef .tc main_v12) (ix2 i (0 : Fin 1)) : EReal)
      = Wp (Proc.devRef .tc main_v11) (ix2 i (0 : Fin 3)) := by
  after_results
  exact slice0_at _ i

/-- Row i of the upper threshold: a₀ + b₀ · (1 - a₀). -/
theorem thrB_at (i : Fin 8192) :
    (StableHlo.after (hostOps0_2 (F := Ideal)) Wp (Proc.devRef .tc main_v18) (ix2 i (0 : Fin 1)) : EReal)
      = Cert.Bridge.thrB (Wp (Proc.devRef .tc main_v11)) i := by
  after_results
  exact thrB_read _ i

/-- Row i of the exponent: 1 / n₀. -/
theorem expo_at (i : Fin 8192) :
    (StableHlo.after (hostOps0_2 (F := Ideal)) Wp (Proc.devRef .tc main_v20) (ix2 i (0 : Fin 1)) : EReal)
      = Cert.Bridge.expo (Wp (Proc.devRef .tc main_v11)) i := by
  after_results
  exact expo_read _ i

/-- The converted x is x, entry by entry (a change of float format is the identity on extended reals). -/
theorem x_at (y : S8192x1024.Idx) :
    (StableHlo.after (hostOps0_2 (F := Ideal)) Wp (Proc.devRef .tc main_v21) y : EReal) = Wp (Proc.devRef .tc main_arg0) y := by
  after_results <;> rfl

/-- The converted x_n is x_n, entry by entry. -/
theorem xn_at (y : S8192x1024.Idx) :
    (StableHlo.after (hostOps0_2 (F := Ideal)) Wp (Proc.devRef .tc main_v22) y : EReal) = Wp (Proc.devRef .tc main_arg1) y := by
  after_results <;> rfl

/-! ## The arguments pass through the first two stretches -/

theorem keep01_arg0 : StableHlo.after (hostOps0_1 (F := Ideal)) Wp (Proc.devRef .tc main_arg0) = Wp (Proc.devRef .tc main_arg0) := by
  after_results <;> rfl
theorem keep01_arg1 : StableHlo.after (hostOps0_1 (F := Ideal)) Wp (Proc.devRef .tc main_arg1) = Wp (Proc.devRef .tc main_arg1) := by
  after_results <;> rfl
theorem keep0_arg0 : StableHlo.after (hostOps0 (F := Ideal)) Wp (Proc.devRef .tc main_arg0) = Wp (Proc.devRef .tc main_arg0) := by
  after_results <;> rfl
theorem keep0_arg1 : StableHlo.after (hostOps0 (F := Ideal)) Wp (Proc.devRef .tc main_arg1) = Wp (Proc.devRef .tc main_arg1) := by
  after_results <;> rfl

end Cert.KernelIdeal.HostSide

end
-- ==== Proof.RowMaxBlockCases.lean ====
/-
  The first call's body, case by case, as one value.

  The output block of 1024 rows by 1 column is kept in its buffer across the eight column blocks of a row block.
  At the first column block the body first overwrites the buffer with -∞ and then stores the larger of that and
  the row maxima of the similarity tile; at every later column block it stores the larger of what the buffer
  held and the tile's row maxima. Each case's covering store, read back, is that payload.
-/
import proofs.«153212_j9964324127268_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.RowMax

open Cert.KernelIdeal Cert.KernelIdeal.Gen

variable {F : FTy → Type} [FloatOps F]

/-- The block's offsets are zero on both axes. -/
theorem hz : (![0, 0] : Fin 2 → Nat) = fun _ => 0 := funext fun a => by fin_cases a <;> rfl

/-- A later column block: the buffer held `xo`; the body leaves the larger of `xo` and the tile's row maxima. -/
theorem out_B (c : Dev nD) (i : grid0.Coords) (a2 : Memref sig .tc .vmem S1024x1024 .bf16) (h2 : a2.IsWhole)
    (a3 : Memref sig .tc .vmem S1024x1024 .bf16) (h3 : a3.IsWhole) (a4 : Memref sig .tc .vmem S1024x1 .f32) (h4 : a4.IsWhole)
    (hc : ¬cond0_0 i) (x0 x1 : Vec F S1024x1024 .bf16) (xo : Vec F S1024x1 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  rw [View.canon_unit_zero hz]
  simp only [View.readAt_eq_ld, h2.read_unread, h3.read_unread, h4.read_unread,
    View.ld_unit_zero (S := S1024x1024) hz, View.ld_unit_zero (S := S1024x1) hz]

/-- The first column block: the buffer is first overwritten with the -∞ column, and the body leaves the larger of that
    column and the tile's row maxima. -/
theorem out_A (c : Dev nD) (i : grid0.Coords) (a2 : Memref sig .tc .vmem S1024x1024 .bf16) (h2 : a2.IsWhole)
    (a3 : Memref sig .tc .vmem S1024x1024 .bf16) (h3 : a3.IsWhole) (a4 : Memref sig .tc .vmem S1024x1 .f32) (h4 : a4.IsWhole)
    (hc : cond0_0 i) (x0 x1 : Vec F S1024x1024 .bf16) :
    out0_A_2 c i a2 h2 a3 h3 a4 h4 hc x0 x1 = k0_pay2 x0 x1 k0_pay1 := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1024x1) hz, View.readCov_unit_zero (S := S1024x1) _ hz]
  simp only [View.readAt_eq_ld, h2.read_unread, h3.read_unread, View.ld_unit_zero (S := S1024x1024) hz]

end Cert.KernelIdeal.RowMax

end
-- ==== Proof.LibAxisReads.lean ====
/-
  Reading reductions over one axis, the keep-dimension layouts around them, and a one-axis matrix product at an
  entry — general facts about vectors on the extended reals, stated over literal ranks with symbolic extents.

  * A reduced index with the dropped coordinate put back is the index with that coordinate in its place
    (rank 2, either axis; rank 3, the last two axes).
  * A maximum or a sum along one axis of a rank-2 vector, read at a row or a column, is the fold of `max` from the
    starting word, or the sum, over that row or column.
  * The host's reduction with a maximum body along the last or the middle axis of a rank-3 array, read at an entry, is
    the same fold over that axis.
  * A vector kept as a column ([a] → [a, 1] → [a, b]) or as a row ([b] → [1, b] → [a, b]) reads back the entry of
    its row or column.
  * A matrix product into the zero accumulator that contracts ONE axis, read at an entry, is the sum over that
    axis of the products of the two operands read where the dimension numbers send the entry and the position.
-/
import Idealize.ShloMosaic.PureOps.Ideal.Laws
import Idealize.ShloMosaic.Lib.ValueIdx
import Idealize.ShloMosaic.Lib.ValueLayout
import Idealize.ShloMosaic.Lib.Pipeline.Value

noncomputable section

namespace Cert.AxisReads

open Idealize.ShloMosaic Idealize.ShloMosaic.ValueIdx

/-! ## The dropped coordinate put back -/

/-- Rank 2, the second axis dropped: row `i` with column `k` put back is (i, k). -/
theorem lift2_axis1 {a b : Nat} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- Rank 2, the first axis dropped: column `j` with row `k` put back is (k, j). -/
theorem lift2_axis0 {a b : Nat} (h : (⟨2, ![a, b]⟩ : Shape).Reduces [0] (⟨1, ![b]⟩ : Shape)) (j : Fin b)
    (k : Fin ((⟨2, ![a, b]⟩ : Shape).size 0)) : h.lift (ix1 j) k = ix2 (⟨k.val, k.isLt⟩ : Fin a) j := by
  funext c; apply Fin.ext
  fin_cases c <;> rfl

/-- Rank 3, the last axis dropped: (t, i) with `k` put back is (t, i, k). -/
theorem lift3_axis2 {n a b : Nat} (h : (⟨3, ![n, a, b]⟩ : Shape).Reduces [2] (⟨2, ![n, a]⟩ : Shape)) (t : Fin n) (i : Fin a)
    (k : Fin ((⟨3, ![n, a, b]⟩ : Shape).size 2)) : h.lift (ix2 t i) k = ix3 t i (⟨k.val, k.isLt⟩ : Fin b) := by
  funext c; apply Fin.ext
  fin_cases c <;> rfl

/-- Rank 3, the middle axis dropped: (t, j) with `k` put back is (t, k, j). -/
theorem lift3_axis1 {n a b : Nat} (h : (⟨3, ![n, a, b]⟩ : Shape).Reduces [1] (⟨2, ![n, b]⟩ : Shape)) (t : Fin n) (j : Fin b)
    (k : Fin ((⟨3, ![n, a, b]⟩ : Shape).size 1)) : h.lift (ix2 t j) k = ix3 t (⟨k.val, k.isLt⟩ : Fin a) j := by
  funext c; apply Fin.ext
  fin_cases c <;> rfl

/-! ## A maximum and a sum along one axis of a rank-2 vector -/

/-- The maximum along the rows: at row `i`, the fold of `max` from the starting word over the row's entries. -/
theorem rowMax_apply {a b : Nat} (src : FVec Ideal (⟨2, ![a, b]⟩ : Shape) .f32) (acc : BitVec 32)
    (h : (⟨2, ![a, b]⟩ : Shape).Reduces [1] (⟨1, ![a]⟩ : Shape)) (hφ : FKind.Formats .f32)
    (hacc : acc = FKind.maximumf.neutral .f32 hφ) (i : Fin a) :
    multiReduction .maximumf [1] (⟨1, ![a]⟩ : Shape) src acc h hφ hacc (ix1 i)
      = (Finset.univ : Finset (Fin b)).fold max (Ideal.ofBits .f32 acc) fun j => src (ix2 i j) := by
  refine (Ideal.multiReduction_maximumf_single src acc h hφ hacc (ix1 i)).trans ?_
  have hf : (src ∘ h.lift (ix1 i)) = fun j : Fin b => src (ix2 i j) :=
    funext fun k => congrArg src (lift2_axis1 h i k)
  exact congrArg (fun f => Finset.fold max (Ideal.ofBits .f32 acc) f (Finset.univ : Finset (Fin b))) hf

/-- The maximum along the columns: at column `j`, the fold of `max` from the starting word over the column's entries. -/
theorem colMax_apply {a b : Nat} (src : FVec Ideal (⟨2, ![a, b]⟩ : Shape) .f32) (acc : BitVec 32)
    (h : (⟨2, ![a, b]⟩ : Shape).Reduces [0] (⟨1, ![b]⟩ : Shape)) (hφ : FKind.Formats .f32)
    (hacc : acc = FKind.maximumf.neutral .f32 hφ) (j : Fin b) :
    multiReduction .maximumf [0] (⟨1, ![b]⟩ : Shape) src acc h hφ hacc (ix1 j)
      = (Finset.univ : Finset (Fin a)).fold max (Ideal.ofBits .f32 acc) fun i => src (ix2 i j) := by
  refine (Ideal.multiReduction_maximumf_single src acc h hφ hacc (ix1 j)).trans ?_
  have hf : (src ∘ h.lift (ix1 j)) = fun i : Fin a => src (ix2 i j) :=
    funext fun k => congrArg src (lift2_axis0 h j k)
  exact congrArg (fun f => Finset.fold max (Ideal.ofBits .f32 acc) f (Finset.univ : Finset (Fin a))) hf

/-- The sum along the rows: at row `i`, the sum of the row's entries. -/
theorem rowSum_apply {a b : Nat} (src : FVec Ideal (⟨2, ![a, b]⟩ : Shape) .f32) (acc : BitVec 32)
    (h : (⟨2, ![a, b]⟩ : Shape).Reduces [1] (⟨1, ![a]⟩ : Shape)) (hφ : FKind.Formats .f32)
    (hacc : acc = FKind.add.neutral .f32 hφ) (i : Fin a) :
    multiReduction .add [1] (⟨1, ![a]⟩ : Shape) src acc h hφ hacc (ix1 i) = ∑ j : Fin b, src (ix2 i j) := by
  refine (Ideal.multiReduction_add_single src acc h hφ hacc (ix1 i)).trans ?_
  exact Finset.sum_congr rfl fun k _ => congrArg src (lift2_axis1 h i k)

/-- The sum along the columns: at column `j`, the sum of the column's entries. -/
theorem colSum_apply {a b : Nat} (src : FVec Ideal (⟨2, ![a, b]⟩ : Shape) .f32) (acc : BitVec 32)
    (h : (⟨2, ![a, b]⟩ : Shape).Reduces [0] (⟨1, ![b]⟩ : Shape)) (hφ : FKind.Formats .f32)
    (hacc : acc = FKind.add.neutral .f32 hφ) (j : Fin b) :
    multiReduction .add [0] (⟨1, ![b]⟩ : Shape) src acc h hφ hacc (ix1 j) = ∑ i : Fin a, src (ix2 i j) := by
  refine (Ideal.multiReduction_add_single src acc h hφ hacc (ix1 j)).trans ?_
  exact Finset.sum_congr rfl fun k _ => congrArg src (lift2_axis0 h j k)

/-! ## The host's maximum along one axis of a rank-3 array -/

/-- The host's reduction with a maximum body over the LAST axis, at (t, i): the fold of `max` from the initial value over
    the entries (t, i, ·). -/
theorem hostMax3_last_apply {n a b : Nat} (x : FVec Ideal (⟨3, ![n, a, b]⟩ : Shape) .f32) (init : FVec Ideal (⟨0, ![]⟩ : Shape) .f32)
    (h' : (⟨3, ![n, a, b]⟩ : Shape).ReducesTo [2] (⟨2, ![n, a]⟩ : Shape)) (hu : 0 < (⟨0, ![]⟩ : Shape).numel) (t : Fin n) (i : Fin a) :
    Host.reduce FloatOps.maximumf x init h' hu (ix2 t i)
      = (Finset.univ : Finset (Fin b)).fold max (init (Shape.Idx.first hu)) fun k => x (ix3 t i k) := by
  have h : (⟨3, ![n, a, b]⟩ : Shape).Reduces [2] (⟨2, ![n, a]⟩ : Shape) := ⟨h'.1, Nat.zero_lt_two, h'.2⟩
  refine (Host.reduce_eq_fold_single FloatOps.maximumf x init h' h hu (ix2 t i)).trans ?_
  have hf : (x ∘ h.lift (ix2 t i)) = fun k : Fin b => x (ix3 t i k) := funext fun k => congrArg x (lift3_axis2 h t i k)
  exact congrArg (fun f => Finset.fold max (init (Shape.Idx.first hu)) f (Finset.univ : Finset (Fin b))) hf

/-- The host's reduction with a maximum body over the MIDDLE axis, at (t, j): the fold of `max` from the initial value
    over the entries (t, ·, j). -/
theorem hostMax3_mid_apply {n a b : Nat} (x : FVec Ideal (⟨3, ![n, a, b]⟩ : Shape) .f32) (init : FVec Ideal (⟨0, ![]⟩ : Shape) .f32)
    (h' : (⟨3, ![n, a, b]⟩ : Shape).ReducesTo [1] (⟨2, ![n, b]⟩ : Shape)) (hu : 0 < (⟨0, ![]⟩ : Shape).numel) (t : Fin n) (j : Fin b) :
    Host.reduce FloatOps.maximumf x init h' hu (ix2 t j)
      = (Finset.univ : Finset (Fin a)).fold max (init (Shape.Idx.first hu)) fun k => x (ix3 t k j) := by
  have h : (⟨3, ![n, a, b]⟩ : Shape).Reduces [1] (⟨2, ![n, b]⟩ : Shape) := ⟨h'.1, Nat.zero_lt_two, h'.2⟩
  refine (Host.reduce_eq_fold_single FloatOps.maximumf x init h' h hu (ix2 t j)).trans ?_
  have hf : (x ∘ h.lift (ix2 t j)) = fun k : Fin a => x (ix3 t k j) := funext fun k => congrArg x (lift3_axis1 h t j k)
  exact congrArg (fun f => Finset.fold max (init (Shape.Idx.first hu)) f (Finset.univ : Finset (Fin a))) hf

/-! ## A vector kept as a column, or as a row -/

variable {α : Type}

/-- An `[a]` vector cast to the column `[a, 1]` reads, at `(i, u)`, entry `i`. -/
theorem shapeCast_a_a1_apply {a : Nat} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry `i`. -/
theorem broadcastTo_a1_ab_apply {a b : Nat} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A vector kept as a column and spread over the columns reads its own entry `i` all along row `i`. -/
theorem column_spread_apply {a b : Nat} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (i : Fin a) (j : Fin b) :
    broadcastTo ⟨2, ![a, b]⟩ (shapeCast ⟨2, ![a, 1]⟩ x h) h' (ix2 i j) = x (ix1 i) :=
  (broadcastTo_a1_ab_apply _ h' i j).trans (shapeCast_a_a1_apply x h i 0)

/-- A vector kept as a row and spread over the rows reads its own entry `j` all along column `j`. -/
theorem row_spread_apply {a b : Nat} (x : (⟨1, ![b]⟩ : Shape).Idx → α) (h : (⟨1, ![b]⟩ : Shape).ShapeCasts ⟨2, ![1, b]⟩)
    (h' : (⟨2, ![1, b]⟩ : Shape).Broadcasts ⟨2, ![a, b]⟩) (i : Fin a) (j : Fin b) :
    broadcastTo ⟨2, ![a, b]⟩ (shapeCast ⟨2, ![1, b]⟩ x h) h' (ix2 i j) = x (ix1 j) :=
  (broadcastTo_1b_ab_apply _ h' i j).trans (shapeCast_a_1a_apply x h 0 j)

/-! ## A one-axis matrix product into zero, at an entry -/

/-- With ONE contracted axis of extent `n`, the product into the zero accumulator at entry `j` is the sum over
    `k : Fin n` of the operands' products, each operand read where the dimension numbers send `j` and position `k`
    (`hl`, `hr`: what those reads are). -/
theorem matmul_zero_single {sl sr so : Shape} {φ₁ φ₂ : FTy} (D : DotDims sl sr so) (n : Nat) (hrk : D.contr.rank = 1)
    (hs : D.contr.size ⟨0, by omega⟩ = n) (lhs : FVec Ideal sl φ₁) (rhs : FVec Ideal sr φ₂) (j : so.Idx)
    (L R : Fin n → EReal)
    (hl : ∀ k : Fin n, lhs (D.lhsIdx j ((contrEquiv1 D n hrk hs).symm k)) = L k)
    (hr : ∀ k : Fin n, rhs (D.rhsIdx j ((contrEquiv1 D n hrk hs).symm k)) = R k) :
    matmul D none lhs rhs (constant so .f32 0x00000000#32) j = ∑ k : Fin n, L k * R k := by
  show FloatOps.matmul D none lhs rhs (constant so .f32 0x00000000#32) j = _
  rw [Ideal.matmul_constant_zero_apply, ← Equiv.sum_comp (contrEquiv1 D n hrk hs).symm]
  exact Finset.sum_congr rfl fun k _ => by rw [hl k, hr k]

end Cert.AxisReads

end
-- ==== Proof.RowMaxBlockPay.lean ====
/-
  The body's arithmetic at a row.

  The 1024 × 1024 similarity tile of a block of rows of x against a block of rows of x_n has, at (p, q), the
  dot product of row p with row q over the 1024 features, times 2⁻¹⁰, less -1024, times 2⁻¹¹. The value the body
  stores at row p of the 1024 × 1 output block is the larger of what the block held there and the maximum,
  folded from -∞, of row p of the tile. The column the first column block resets the buffer to is -∞ everywhere.
-/
import proofs.«153212_j9964324127268_2_alg».proof.Proof.Gen.KernelIdeal.Skeleton
import proofs.«153212_j9964324127268_2_alg».proof.Proof.LibAxisReads
import Idealize.ShloMosaic.Lib.Pipeline.Value
import Idealize.ShloMosaic.Lib.ValueLayout

noncomputable section

open Idealize.ShloMosaic Idealize.ShloMosaic.ValueIdx

namespace Cert.KernelIdeal.RowMax

open Cert.KernelIdeal Cert.KernelIdeal.Gen

/-- The matrix product's dimension numbers, by a short name. -/
abbrev DD : DotDims S1024x1024 S1024x1024 S1024x1024 := dot_S1024x1024_S1024x1024_S1024x1024_1_0_0_1_n_n

/-- Where the product's entry (p, q) and feature k read the left operand: (p, k). -/
theorem lhsIdx_eq (p q k : Fin 1024) :
    DD.lhsIdx (ix2 p q) ((contrEquiv1 DD 1024 rfl rfl).symm k) = ix2 p k := by
  funext a
  apply Fin.ext
  match a with
  | ⟨0, _⟩ =>
    show (DD.lhsIdx (ix2 p q) _ 0).val = p.val
    unfold DotDims.lhsIdx
    rw [dif_neg (show ¬(0 : Fin S1024x1024.rank) ∈ DD.lhsBatch by decide),
      dif_pos (show (0 : Fin S1024x1024.rank) ∈ DD.lhsNonContracting by decide)]
    rfl
  | ⟨1, _⟩ =>
    exact (DD.lhsIdx_val_of_single rfl (ix2 p q) _).trans (contrEquiv1_symm_val DD 1024 rfl rfl k)

/-- Where the product's entry (p, q) and feature k read the right operand: (k, q). -/
theorem rhsIdx_eq (p q k : Fin 1024) :
    DD.rhsIdx (ix2 p q) ((contrEquiv1 DD 1024 rfl rfl).symm k) = ix2 k q := by
  funext a
  apply Fin.ext
  match a with
  | ⟨0, _⟩ =>
    exact (DD.rhsIdx_val_of_single rfl (ix2 p q) _).trans (contrEquiv1_symm_val DD 1024 rfl rfl k)
  | ⟨1, _⟩ =>
    show (DD.rhsIdx (ix2 p q) _ 1).val = q.val
    unfold DotDims.rhsIdx
    rw [dif_neg (show ¬(1 : Fin S1024x1024.rank) ∈ DD.rhsBatch by decide),
      dif_pos (show (1 : Fin S1024x1024.rank) ∈ DD.rhsNonContracting by decide)]
    rfl

/-- The product of a block of rows of x with the transpose of a block of rows of x_n, at (p, q): the dot product of
    row p with row q. -/
theorem product_apply (x0 x1 : FVec Ideal S1024x1024 .bf16) (p q : Fin 1024) :
    matmul DD none (shapeCast S1024x1024 x0 shapeCasts_S1024x1024_S1024x1024)
        (transpose S1024x1024 [1, 0] (shapeCast S1024x1024 x1 shapeCasts_S1024x1024_S1024x1024)
          transposes_S1024x1024_p1_0_S1024x1024)
        (constant S1024x1024 .f32 0x00000000#32) (ix2 p q)
      = ∑ k : Fin 1024, x0 (ix2 p k) * x1 (ix2 q k) := by
  refine Cert.AxisReads.matmul_zero_single DD 1024 rfl rfl _ _ (ix2 p q)
    (fun k => x0 (ix2 p k)) (fun k => x1 (ix2 q k)) (fun k => ?_) (fun k => ?_)
  · rw [lhsIdx_eq, shapeCast_self]
  · rw [rhsIdx_eq, shapeCast_self]
    exact transpose_ix2_apply x1 transposes_S1024x1024_p1_0_S1024x1024 k q

/-- The similarity tile at (p, q). -/
def tile (x0 x1 : FVec Ideal S1024x1024 .bf16) (p q : Fin 1024) : EReal :=
  ((∑ k : Fin 1024, x0 (ix2 p k) * x1 (ix2 q k)) * Ideal.ofBits .f32 0x3A800000#32 - Ideal.ofBits .f32 0xC4800000#32)
    * Ideal.ofBits .f32 0x3A000000#32

/-- The maximum along the rows of a 1024 × 1024 vector, with the starting word's hypothesis typed as the body
    prints it. -/
theorem rowMax1024 (src : FVec Ideal S1024x1024 .f32) (hφ : FKind.Formats .f32)
    (hacc : (0xFF800000#32 : BitVec 32) = FKind.maximumf.neutral .f32 hφ) (p : Fin 1024) :
    multiReduction .maximumf [1] S1024 src 0xFF800000#32 reduces_S1024x1024_S1024 hφ hacc (ix1 p)
      = (Finset.univ : Finset (Fin 1024)).fold max (Ideal.ofBits .f32 0xFF800000#32) fun q => src (ix2 p q) :=
  Cert.AxisReads.rowMax_apply src 0xFF800000#32 reduces_S1024x1024_S1024 hφ hacc p

/-- What the body stores at row p: the larger of the buffer's entry and the maximum of row p of the tile. -/
theorem pay2_apply (x0 x1 : Vec Ideal S1024x1024 .bf16) (xo : Vec Ideal S1024x1 .f32) (p : Fin 1024) :
    k0_pay2 (F := Ideal) x0 x1 xo (ix2 p 0)
      = max (xo (ix2 p 0))
          ((Finset.univ : Finset (Fin 1024)).fold max (Ideal.ofBits .f32 0xFF800000#32) fun q => tile x0 x1 p q) := by
  unfold k0_pay2
  show max (shapeCast S1024x1 xo shapeCasts_S1024x1_S1024x1 (ix2 p 0)) _ = _
  rw [shapeCast_self]
  refine congrArg (max (xo (ix2 p 0))) ?_
  refine (Cert.AxisReads.shapeCast_a_a1_apply _ shapeCasts_S1024_S1024x1 p 0).trans ?_
  refine (rowMax1024 _ _ _ p).trans ?_
  refine congrArg (fun f => Finset.fold max (Ideal.ofBits .f32 0xFF800000#32) f (Finset.univ : Finset (Fin 1024))) ?_
  funext q
  show (matmul DD none _ _ _ (ix2 p q) * Ideal.ofBits .f32 0x3A800000#32 - Ideal.ofBits .f32 0xC4800000#32)
      * Ideal.ofBits .f32 0x3A000000#32 = _
  rw [product_apply]
  rfl

/-- The column the first column block resets the buffer to is -∞ at every row. -/
theorem pay1_apply (y : S1024x1.Idx) : k0_pay1 (F := Ideal) y = Ideal.ofBits .f32 0xFF800000#32 := rfl

end Cert.KernelIdeal.RowMax

end
-- ==== Proof.RowMaxBlockFold.lean ====
/-
  The maximum of a row of 8192 entries, taken 1024 columns at a time.

  A value v is "the maximum of the first n entries" of a row s when its upper bounds are exactly the common
  upper bounds of those entries: v ≤ z ↔ ∀ j < n, s j ≤ z. The value -∞ (the least extended real) is the maximum of
  no entries. A maximum folded from -∞ over a block of 1024 columns has the block's entries' common upper bounds,
  so taking the larger of a running value and the next block's maximum extends the property by 1024 columns; and
  a value with the property for all 8192 columns is the row's maximum folded from -∞. Nothing is reindexed: the two
  sides are compared through their upper bounds.
-/
import proofs.«153212_j9964324127268_2_alg».proof.Proof.Spec

noncomputable section

namespace Cert.KernelIdeal.RowMax

open Idealize.ShloMosaic

/-- The word 0xFF800000 is -∞, the least extended real. -/
theorem negInf_eq_bot : Ideal.ofBits .f32 0xFF800000#32 = (⊥ : EReal) := by
  simp [Ideal.ofBits, Ideal.ieee]

/-- v is the maximum of the first n entries of the row s, said through its upper bounds. -/
def MaxUpTo (s : Fin 8192 → EReal) (n : Nat) (v : EReal) : Prop :=
  ∀ z : EReal, v ≤ z ↔ ∀ j : Fin 8192, j.val < n → s j ≤ z

/-- The upper bounds of a block's maximum folded from -∞ are the common upper bounds of the block's entries. -/
theorem blockMax_le (f : Fin 1024 → EReal) (z : EReal) :
    (Finset.univ : Finset (Fin 1024)).fold max (Ideal.ofBits .f32 0xFF800000#32) f ≤ z ↔ ∀ q : Fin 1024, f q ≤ z := by
  rw [Finset.fold_max_le, negInf_eq_bot]
  exact ⟨fun h q => h.2 q (Finset.mem_univ q), fun h => ⟨bot_le, fun q _ => h q⟩⟩

/-- -∞ is the maximum of no entries. -/
theorem maxUpTo_zero (s : Fin 8192 → EReal) : MaxUpTo s 0 (Ideal.ofBits .f32 0xFF800000#32) := by
  intro z
  rw [negInf_eq_bot]
  exact ⟨fun _ j hj => absurd hj (Nat.not_lt_zero _), fun _ => bot_le⟩

/-- Column block k (its entry q is the row's entry 1024·k + q): the larger of the maximum of the first 1024·k entries
    and the block's maximum is the maximum of the first 1024·(k+1) entries. -/
theorem maxUpTo_step (s : Fin 8192 → EReal) (k : Nat) (hk : k < 8) (v : EReal) (hv : MaxUpTo s (1024 * k) v)
    (f : Fin 1024 → EReal) (hf : ∀ (q : Fin 1024) (j : Fin 8192), j.val = 1024 * k + q.val → f q = s j) :
    MaxUpTo s (1024 * (k + 1))
      (max v ((Finset.univ : Finset (Fin 1024)).fold max (Ideal.ofBits .f32 0xFF800000#32) f)) := by
  intro z
  rw [max_le_iff, blockMax_le, hv z]
  constructor
  · rintro ⟨h1, h2⟩ j hj
    by_cases hlt : j.val < 1024 * k
    · exact h1 j hlt
    · have hq : j.val - 1024 * k < 1024 := by omega
      rw [← hf ⟨j.val - 1024 * k, hq⟩ j (by show j.val = 1024 * k + (j.val - 1024 * k); omega)]
      exact h2 _
  · intro h
    refine ⟨fun j hj => h j (by omega), fun q => ?_⟩
    have hq : q.val < 1024 := q.isLt
    have hj : 1024 * k + q.val < 8192 := by omega
    rw [hf q ⟨1024 * k + q.val, hj⟩ rfl]
    exact h _ (by show 1024 * k + q.val < 1024 * (k + 1); omega)

/-- A value that is the maximum of all 8192 entries, said through its upper bounds, is the row's maximum folded from -∞. -/
theorem maxUpTo_all (s : Fin 8192 → EReal) (v : EReal) (hv : MaxUpTo s 8192 v) :
    v = (Finset.univ : Finset (Fin 8192)).fold max Cert.Bridge.negInf s := by
  have hT : ∀ z : EReal, (Finset.univ : Finset (Fin 8192)).fold max Cert.Bridge.negInf s ≤ z ↔ ∀ j : Fin 8192, s j ≤ z := by
    intro z
    rw [Finset.fold_max_le]
    show Ideal.ofBits .f32 0xFF800000#32 ≤ z ∧ _ ↔ _
    rw [negInf_eq_bot]
    exact ⟨fun h j => h.2 j (Finset.mem_univ j), fun h => ⟨bot_le, fun j _ => h j⟩⟩
  apply le_antisymm
  · rw [hv]; intro j _; exact (hT _).mp le_rfl j
  · rw [hT]; intro j; exact (hv _).mp le_rfl j j.isLt

end Cert.KernelIdeal.RowMax

end
-- ==== Proof.RowMaxBlock.lean ====
/-
  The first call's result: the column of row maxima.

  Point t of the 8 × 8 grid is row block t / 8 against column block t % 8. Its two input blocks are rows
  1024·(t/8) + p of x and rows 1024·(t%8) + q of x_n, so its similarity tile at (p, q) is the similarity of row
  1024·(t/8) + p with column 1024·(t%8) + q. By induction on the point, the output buffer's entry p after point t is
  the maximum of the first 1024·(t%8 + 1) similarities of row 1024·(t/8) + p: the first column block starts from -∞,
  every later one extends what the point before left. The buffer is written back after the last column block
  (t % 8 = 7), when that is the maximum of the whole row; the eight write-backs cover the column.
-/
import proofs.«153212_j9964324127268_2_alg».proof.Proof.Gen.KernelIdeal.Frame
import proofs.«153212_j9964324127268_2_alg».proof.Proof.Spec
import proofs.«153212_j9964324127268_2_alg».proof.Proof.RowMaxBlockCases
import proofs.«153212_j9964324127268_2_alg».proof.Proof.RowMaxBlockPay
import proofs.«153212_j9964324127268_2_alg».proof.Proof.RowMaxBlockFold
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.RowMax

open Cert.KernelIdeal Cert.KernelIdeal.Gen

variable (V : (c : Dev nD) → (b : Ref sig .tc) → Buf (Elt Ideal) ((c : Thread nD τ).loc b)) (c : Dev nD)

/-- The block indices of the three windows at point t: row block t / 8 for x and for the output, column block t % 8 for
    x_n, and 0 along the features and along the output's one column. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0 :=
  (by decide +kernel : ∀ t : Fin grid0.N, _)

/-- The block of x at point t holds, at (p, k), row 1024·(t/8) + p of x at feature k. -/
theorem xblock_apply (t : Fin cfg0.N) (p k : Fin 1024) (r : Fin 8192) (hr : r.val = 1024 * (t.val / 8) + p.val) :
    (iblk0 V c 0 t : Vec Ideal S1024x1024 .bf16) (ix2 p k) = (V c main_v21 : Cert.Bridge.SX.Idx → EReal) (ix2 r k) := by
  obtain ⟨e0, e1, -, -, -, -⟩ := idx_facts t
  unfold iblk0
  rw [View.read_apply]
  show (V c main_v21 : Cert.Bridge.SX.Idx → EReal) _ = _
  refine congrArg (V c main_v21 : Cert.Bridge.SX.Idx → EReal) ?_
  funext a
  apply Fin.ext
  match a with
  | ⟨0, _⟩ => show win0_0.index t (0 : Fin 2) * 1024 + 1 * p.val = r.val; rw [e0, hr]; omega
  | ⟨1, _⟩ => show win0_0.index t (1 : Fin 2) * 1024 + 1 * k.val = k.val; rw [e1]; omega

/-- The block of x_n at point t holds, at (q, k), row 1024·(t%8) + q of x_n at feature k. -/
theorem xnblock_apply (t : Fin cfg0.N) (q k : Fin 1024) (j : Fin 8192) (hj : j.val = 1024 * (t.val % 8) + q.val) :
    (iblk0 V c 1 t : Vec Ideal S1024x1024 .bf16) (ix2 q k) = (V c main_v22 : Cert.Bridge.SX.Idx → EReal) (ix2 j k) := by
  obtain ⟨-, -, e2, e3, -, -⟩ := idx_facts t
  unfold iblk0
  rw [View.read_apply]
  show (V c main_v22 : Cert.Bridge.SX.Idx → EReal) _ = _
  refine congrArg (V c main_v22 : Cert.Bridge.SX.Idx → EReal) ?_
  funext a
  apply Fin.ext
  match a with
  | ⟨0, _⟩ => show win0_1.index t (0 : Fin 2) * 1024 + 1 * q.val = j.val; rw [e2, hj]; omega
  | ⟨1, _⟩ => show win0_1.index t (1 : Fin 2) * 1024 + 1 * k.val = k.val; rw [e3]; omega

/-- Point t's similarity tile at (p, q) is the similarity of row 1024·(t/8) + p with column 1024·(t%8) + q. -/
theorem tile_at (t : Fin cfg0.N) (p q : Fin 1024) (r j : Fin 8192) (hr : r.val = 1024 * (t.val / 8) + p.val)
    (hj : j.val = 1024 * (t.val % 8) + q.val) :
    tile (iblk0 V c 0 t) (iblk0 V c 1 t) p q = Cert.Bridge.simK (V c main_v21) (V c main_v22) r j := by
  unfold tile Cert.Bridge.simK Cert.Bridge.dot
  refine congrArg (fun S : EReal => (S * Ideal.ofBits .f32 0x3A800000#32 - Ideal.ofBits .f32 0xC4800000#32)
    * Ideal.ofBits .f32 0x3A000000#32) ?_
  refine Finset.sum_congr rfl fun k _ => ?_
  rw [xblock_apply V c t p k r hr, xnblock_apply V c t q k j hj]

/-- After point n, entry p of the output buffer is the maximum of the first 1024·(n%8 + 1) similarities of row
    1024·(n/8) + p — by induction on the point. -/
theorem outsAt_inv : ∀ (n : ℕ) (h : n < cfg0.N) (p : Fin 1024) (r : Fin 8192), r.val = 1024 * (n / 8) + p.val →
    MaxUpTo (Cert.Bridge.simK (V c main_v21) (V c main_v22) r) (1024 * (n % 8 + 1))
      (outsAt0 (F := Ideal) V c n h (ix2 p 0))
  | 0, h, p, r, hr => by
    rw [outsAt0_A V c ⟨0, h⟩ rfl, out_A, pay2_apply, pay1_apply]
    exact maxUpTo_step _ 0 (by omega) _ (maxUpTo_zero _) _
      (fun q j hj => tile_at V c ⟨0, h⟩ p q r j hr hj)
  | n + 1, h, p, r, hr => by
    have hN : cfg0.N = 64 := N_0
    by_cases h0 : (n + 1) % 8 = 0
    · rw [outsAt0_A V c ⟨n + 1, h⟩ h0, out_A, pay2_apply, pay1_apply]
      have hstep := maxUpTo_step (Cert.Bridge.simK (V c main_v21) (V c main_v22) r) ((n + 1) % 8) (by omega) _
        (by rw [h0]; exact maxUpTo_zero _) _
        (fun q j hj => tile_at V c ⟨n + 1, h⟩ p q r j hr hj)
      exact hstep
    · rw [outsAt0_B V c ⟨n + 1, h⟩ h0, out_B, pay2_apply]
      have ih := outsAt_inv n (Nat.lt_of_succ_lt h) p r (by rw [hr]; omega)
      have e : 1024 * (n % 8 + 1) = 1024 * ((n + 1) % 8) := by omega
      rw [e] at ih
      exact maxUpTo_step (Cert.Bridge.simK (V c main_v21) (V c main_v22) r) ((n + 1) % 8) (by omega) _ ih _
        (fun q j hj => tile_at V c ⟨n + 1, h⟩ p q r j hr hj)

/-- After the last column block of a row block, entry p of the buffer is the largest similarity of row 1024·(t/8) + p. -/
theorem row_final (t : Fin cfg0.N) (h7 : t.val % 8 = 7) (p : Fin 1024) (r : Fin 8192)
    (hr : r.val = 1024 * (t.val / 8) + p.val) :
    outsAt0 (F := Ideal) V c t.val t.isLt (ix2 p 0)
      = Cert.Bridge.rowMaxOf (Cert.Bridge.simK (V c main_v21) (V c main_v22)) r := by
  have hinv := outsAt_inv V c t.val t.isLt p r hr
  have e : 1024 * (t.val % 8 + 1) = 8192 := by omega
  rw [e] at hinv
  exact maxUpTo_all _ _ hinv

/-- What a point that writes the buffer back writes is its block of the column of row maxima. -/
theorem flushed_eq (t : Fin cfg0.N) (hf : (cfg0.win 2).flush t = true) :
    (dat0 (F := Ideal) V c).flushed 2 t
      = ((cfg0.win 2).blk t).view.read (Elt Ideal) (Cert.Bridge.rowMaxCol (V c main_v21) (V c main_v22)) := by
  have h7 : t.val % 8 = 7 := (flush0_2 t).mp hf
  obtain ⟨-, -, -, -, e4, -⟩ := idx_facts t
  show (cfg0.win 2).cut (grid0.coords t) ((dat0 (F := Ideal) V c).after 2 t) = _
  rw [after0_2]
  funext y
  obtain ⟨p, u, rfl⟩ : ∃ (p : Fin 1024) (u : Fin 1), y = ix2 p u := ⟨y 0, y 1, eq_ix2 y⟩
  obtain rfl : u = 0 := Subsingleton.elim _ _
  rw [View.read_apply]
  show outsAt0 (F := Ideal) V c t.val t.isLt (ix2 p 0)
    = Cert.Bridge.rowMaxOf (Cert.Bridge.simK (V c main_v21) (V c main_v22)) ((((cfg0.win 2).blk t).view.emb (ix2 p 0)) 0)
  refine row_final V c t h7 p _ ?_
  show win0_2.index t (0 : Fin 2) * 1024 + 1 * p.val = _
  rw [e4]; omega

/-- An index of the column is in point t's block iff each coordinate is in the block's range on its axis. -/
theorem mem_blk (t : Fin cfg0.N) (i : S8192x1.Idx) :
    i ∈ ((cfg0.win 2).blk t).view.set
      ↔ ∀ a : Fin 2, win0_2.index t a * S1024x1.size a ≤ (i a).val ∧ (i a).val < win0_2.index t a * S1024x1.size a + S1024x1.size a := by
  show i ∈ ((View.whole main_v23).slice (win0_2.rect t)).set ↔ _
  rw [View.set_slice_whole, Rect.mem_set_unit]
  exact Iff.rfl

/-- The first call's result array is the column of row maxima of the similarity. -/
theorem rowmax_final :
    (dat0 (F := Ideal) V c).arrAt 2 cfg0.N = Cert.Bridge.rowMaxCol (V c main_v21) (V c main_v22) :=
  (dat0 (F := Ideal) V c).arrAt_eq_of_cover 2 (Cert.Bridge.rowMaxCol (V c main_v21) (V c main_v22))
    (fun t hf => flushed_eq V c t hf) fun i => by
      have hN : cfg0.N = 64 := N_0
      have hi0 : (i 0).val < 8192 := (i 0).isLt
      have hi1 : (i 1).val < 1 := (i 1).isLt
      have ht : 8 * ((i 0).val / 1024) + 7 < cfg0.N := by rw [hN]; omega
      obtain ⟨-, -, -, -, e4, e5⟩ := idx_facts ⟨8 * ((i 0).val / 1024) + 7, ht⟩
      have e4' : win0_2.index ⟨8 * ((i 0).val / 1024) + 7, ht⟩ (0 : Fin 2) = (8 * ((i 0).val / 1024) + 7) / 8 := e4
      refine ⟨⟨8 * ((i 0).val / 1024) + 7, ht⟩, (flush0_2 _).mpr (by show (8 * ((i 0).val / 1024) + 7) % 8 = 7; omega), ?_⟩
      rw [mem_blk]
      intro a
      match a with
      | ⟨0, _⟩ =>
        show win0_2.index ⟨8 * ((i 0).val / 1024) + 7, ht⟩ (0 : Fin 2) * 1024 ≤ (i 0).val
          ∧ (i 0).val < win0_2.index ⟨8 * ((i 0).val / 1024) + 7, ht⟩ (0 : Fin 2) * 1024 + 1024
        rw [e4']; omega
      | ⟨1, _⟩ =>
        show win0_2.index ⟨8 * ((i 0).val / 1024) + 7, ht⟩ (1 : Fin 2) * 1 ≤ (i 1).val
          ∧ (i 1).val < win0_2.index ⟨8 * ((i 0).val / 1024) + 7, ht⟩ (1 : Fin 2) * 1 + 1
        rw [e5]; omega

end Cert.KernelIdeal.RowMax

end
-- ==== Proof.KernelEntry.lean ====
/-
  What the second grid computation is entered with, in terms of the launch memory.

  Write x, x_n for the two feature matrices as launched and P for the clipped parameters the host computed from
  them. When the second grid computation starts, its five input arrays hold: x and x_n (converted to bf16: unchanged
  as extended reals); the lower thresholds, row i being  min (P i 0) (the largest similarity of row i) - ε  — the row
  maxima are what the first grid computation left, and the host subtracted ε from the minimum in between; the upper
  thresholds  P i 0 + P i 1 · (1 - P i 0);  and the exponents  1 / P i 2.
-/
import proofs.«153212_j9964324127268_2_alg».proof.Proof.HostSide
import proofs.«153212_j9964324127268_2_alg».proof.Proof.RowMaxBlock

noncomputable section

namespace Cert.KernelIdeal.Entry

open Idealize.ShloMosaic Idealize.ShloMosaic.TcCoe Idealize.SL.Sem Idealize.ShloMosaic.StableHlo
open Idealize.ShloMosaic.ValueIdx
open Cert.KernelIdeal Cert.KernelIdeal.Gen Cert.KernelIdeal.HostSide

variable (m : (ℓ : Loc nD τ sig) → Buf (Elt Ideal) ℓ) (ρ : Dev nD → PrngReg)

/-- The clipped parameters as the host leaves them before the first grid computation. -/
abbrev params (c : Dev nD) : FVec Ideal S8192x3 .f32 := W2 m ρ c (Proc.devRef .tc main_v11)

/-- x reaches the first grid computation unchanged. -/
theorem x3_at (c : Dev nD) (y : S8192x1024.Idx) :
    (V3 m ρ c main_v21 y : EReal) = m ((c.tc : Thread nD τ).loc main_arg0) y :=
  (x_at (W2 m ρ c) y).trans (congrFun ((keep01_arg0 (W1 m ρ c)).trans (keep0_arg0 (W0 m ρ c))) y)

/-- x_n reaches the first grid computation unchanged. -/
theorem xn3_at (c : Dev nD) (y : S8192x1024.Idx) :
    (V3 m ρ c main_v22 y : EReal) = m ((c.tc : Thread nD τ).loc main_arg1) y :=
  (xn_at (W2 m ρ c) y).trans (congrFun ((keep01_arg1 (W1 m ρ c)).trans (keep0_arg1 (W0 m ρ c))) y)

/-- x reaches the second grid computation unchanged. -/
theorem x5_at (c : Dev nD) (y : S8192x1024.Idx) :
    (V5 m ρ c main_v21 y : EReal) = m ((c.tc : Thread nD τ).loc main_arg0) y :=
  (congrFun ((keep1_v21 (W4 m ρ c)).trans ((W4_arr m ρ c 0).trans
    (((dat0 (V3 m ρ) c).arrAt_in 0 rfl _).trans (A_eq0 (V3 m ρ) c 0)))) y).trans (x3_at m ρ c y)

/-- x_n reaches the second grid computation unchanged. -/
theorem xn5_at (c : Dev nD) (y : S8192x1024.Idx) :
    (V5 m ρ c main_v22 y : EReal) = m ((c.tc : Thread nD τ).loc main_arg1) y :=
  (congrFun ((keep1_v22 (W4 m ρ c)).trans ((W4_arr m ρ c 1).trans
    (((dat0 (V3 m ρ) c).arrAt_in 1 rfl _).trans (A_eq0 (V3 m ρ) c 1)))) y).trans (xn3_at m ρ c y)

/-- Row i of the upper thresholds. -/
theorem b5_at (c : Dev nD) (i : Fin 8192) :
    (V5 m ρ c main_v18 (ix2 i (0 : Fin 1)) : EReal) = Cert.Bridge.thrB (params m ρ c) i :=
  (congrFun ((keep1_v18 (W4 m ρ c)).trans (W4_of_ne m ρ c main_v18 (by decide))) (ix2 i (0 : Fin 1))).trans (thrB_at (W2 m ρ c) i)

/-- Row i of the exponents. -/
theorem n5_at (c : Dev nD) (i : Fin 8192) :
    (V5 m ρ c main_v20 (ix2 i (0 : Fin 1)) : EReal) = Cert.Bridge.expo (params m ρ c) i :=
  (congrFun ((keep1_v20 (W4 m ρ c)).trans (W4_of_ne m ρ c main_v20 (by decide))) (ix2 i (0 : Fin 1))).trans (expo_at (W2 m ρ c) i)

/-- The first grid computation's output array is the row maxima's. -/
theorem arr2 : Pipeline.arrRef spec0 2 = main_v23 := rfl

/-- What the first grid computation leaves: row i's largest similarity, of x and x_n as launched. -/
theorem rowmax4_at (c : Dev nD) (i : Fin 8192) :
    (W4 m ρ c (Proc.devRef .tc main_v23) (ix2 i (0 : Fin 1)) : EReal)
      = Cert.Bridge.rowMaxOf (Cert.Bridge.simK (m ((c.tc : Thread nD τ).loc main_arg0)) (m ((c.tc : Thread nD τ).loc main_arg1))) i := by
  have hx : (V3 m ρ c main_v21 : S8192x1024.Idx → EReal) = m ((c.tc : Thread nD τ).loc main_arg0) := funext (x3_at m ρ c)
  have hxn : (V3 m ρ c main_v22 : S8192x1024.Idx → EReal) = m ((c.tc : Thread nD τ).loc main_arg1) := funext (xn3_at m ρ c)
  have h := congrFun ((W4_arr m ρ c 2).trans (Cert.KernelIdeal.RowMax.rowmax_final (V3 m ρ) c)) (ix2 i (0 : Fin 1))
  rw [hx, hxn] at h
  exact h

/-- Row i of the lower thresholds. -/
theorem a5_at (c : Dev nD) (i : Fin 8192) :
    (V5 m ρ c main_v26 (ix2 i (0 : Fin 1)) : EReal)
      = Cert.Bridge.thrA (params m ρ c)
          (Cert.Bridge.rowMaxOf (Cert.Bridge.simK (m ((c.tc : Thread nD τ).loc main_arg0)) (m ((c.tc : Thread nD τ).loc main_arg1)))) i := by
  refine (thrA_at (W4 m ρ c) i).trans ?_
  unfold Cert.Bridge.thrA
  rw [rowmax4_at m ρ c i]
  have h12 : (W4 m ρ c (Proc.devRef .tc main_v12) (ix2 i (0 : Fin 1)) : EReal) = params m ρ c (ix2 i (0 : Fin 3)) :=
    (congrFun (W4_of_ne m ρ c main_v12 (by decide)) (ix2 i (0 : Fin 1))).trans (a0_at (W2 m ρ c) i)
  rw [h12]

end Cert.KernelIdeal.Entry

end
-- ==== Proof.KernelRun.lean ====
/-
  The kernel program's run with its result named.

  The program is three stretches of host operations, the first grid computation (the row maxima), one more host
  stretch (the lower threshold from the row maxima) and the second grid computation (the scores). Every weakly fair
  execution ends, nothing faulting, with every buffer at the value the segments leave one after the other; read at
  the result buffer that value is what the second grid computation's write-backs leave in its output array, taken
  from the buffer contents it was entered with, and the four arguments are as launched.
-/
import proofs.«153212_j9964324127268_2_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer is the second grid computation's output array. -/
theorem arr5 : Pipeline.arrRef spec1 5 = main_v27 := rfl

set_option backward.isDefEq.respectTransparency.types false in
/-- Every weakly fair execution ends with the result buffer at what the second grid computation's write-backs leave
    in its output array — entered with the buffer contents `V5`, the contents after the host stretch that follows the
    first grid computation — and with the arguments unchanged. -/
theorem run_score : θ_run defs (onTc (τ := τ) (main (F := F))) ⟨m, fun _ => 0, ρ⟩ (fun r => ∀ c : Dev nD,
      r.2.mem ((c.tc : Thread nD τ).loc main_v27) = (dat1 (V5 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨(h c _ (mem_uc main_v27 (by decide))).trans (W6_arr m ρ c 5),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c)⟩)

end Cert.KernelIdeal.Run

end
-- ==== Proof.ScoreBlockSim.lean ====
/-
  The similarity tile of one grid point, entry by entry.

  The body multiplies the 1024×1024 block of x by the transpose of the 1024×1024 block of x_n, into a zero
  accumulator, and rescales: entry (p, q) of the tile is
      ((∑ₖ x[p,k]·x_n[q,k]) · 2⁻¹⁰ − (−1024)) · 2⁻¹¹,
  the dot product of row p of the first block with row q of the second, scaled into [0, 1].
-/
import proofs.«153212_j9964324127268_2_alg».proof.Proof.Gen.KernelIdeal.Skeleton
import proofs.«153212_j9964324127268_2_alg».proof.Proof.Spec
import proofs.«153212_j9964324127268_2_alg».proof.Proof.LibAxisReads
import Idealize.ShloMosaic.Lib.Pipeline.Value

noncomputable section

open Idealize.ShloMosaic Idealize.ShloMosaic.TcCoe Idealize.SL.Sem Idealize.ShloMosaic.ValueIdx

namespace Cert.KernelIdeal.Score

open Cert.KernelIdeal Cert.KernelIdeal.Gen

/-- The one contraction of the tile's product: axis 1 of the left operand against axis 0 of the right. -/
abbrev tileDot : DotDims S1024x1024 S1024x1024 S1024x1024 := dot_S1024x1024_S1024x1024_S1024x1024_1_0_0_1_n_n

theorem tileDot_lhs0 (i : S1024x1024.Idx) (q : tileDot.contr.Idx) : (tileDot.lhsIdx i q 0).val = (i 0).val := by
  unfold DotDims.lhsIdx
  rw [dif_neg (show ¬(0 : Fin S1024x1024.rank) ∈ tileDot.lhsBatch by decide), dif_pos (show (0 : Fin S1024x1024.rank) ∈ tileDot.lhsNonContracting by decide)]
  rfl

theorem tileDot_lhs1 (i : S1024x1024.Idx) (q : tileDot.contr.Idx) : (tileDot.lhsIdx i q 1).val = (q ⟨0, by decide⟩).val :=
  tileDot.lhsIdx_val_of_single rfl i q

theorem tileDot_rhs0 (i : S1024x1024.Idx) (q : tileDot.contr.Idx) : (tileDot.rhsIdx i q 0).val = (q ⟨0, by decide⟩).val :=
  tileDot.rhsIdx_val_of_single rfl i q

theorem tileDot_rhs1 (i : S1024x1024.Idx) (q : tileDot.contr.Idx) : (tileDot.rhsIdx i q 1).val = (i 1).val := by
  unfold DotDims.rhsIdx
  rw [dif_neg (show ¬(1 : Fin S1024x1024.rank) ∈ tileDot.rhsBatch by decide), dif_pos (show (1 : Fin S1024x1024.rank) ∈ tileDot.rhsNonContracting by decide)]
  rfl

/-- The transposed block read at (k, q) is the block at (q, k). -/
theorem transpose_tile_apply (x : FVec Ideal S1024x1024 .bf16) (k q : Fin 1024) :
    transpose S1024x1024 [1, 0] x transposes_S1024x1024_p1_0_S1024x1024 (ix2 k q) = x (ix2 q k) :=
  transpose_apply [1, 0] x transposes_S1024x1024_p1_0_S1024x1024 (ix2 k q) (ix2 q k) fun b => by
    match b with
    | ⟨0, _⟩ => rfl
    | ⟨1, _⟩ => rfl

/-- The product of the first block with the transposed second block, at (p, q): row p against row q. -/
theorem tile_matmul_apply (x0 x1 : FVec Ideal S1024x1024 .bf16) (p q : Fin 1024) :
    matmul tileDot none x0 (transpose S1024x1024 [1, 0] x1 transposes_S1024x1024_p1_0_S1024x1024)
        (constant S1024x1024 .f32 0x00000000#32) (ix2 p q)
      = ∑ k : Fin 1024, x0 (ix2 p k) * x1 (ix2 q k) := by
  refine Cert.AxisReads.matmul_zero_single tileDot 1024 rfl rfl x0 _ (ix2 p q)
    (fun k => x0 (ix2 p k)) (fun k => x1 (ix2 q k)) (fun k => ?_) (fun k => ?_)
  · have hk := contrEquiv1_symm_val tileDot 1024 rfl rfl k
    refine congrArg x0 (funext fun a => Fin.ext ?_)
    match a with
    | ⟨0, _⟩ => exact tileDot_lhs0 _ _
    | ⟨1, _⟩ => exact (tileDot_lhs1 _ _).trans hk
  · have hk := contrEquiv1_symm_val tileDot 1024 rfl rfl k
    refine Eq.trans (congrArg _ (funext fun a => Fin.ext ?_)) (transpose_tile_apply x1 k q)
    match a with
    | ⟨0, _⟩ => exact (tileDot_rhs0 _ _).trans hk
    | ⟨1, _⟩ => exact tileDot_rhs1 _ _

/-- The similarity tile at (p, q). -/
theorem sim_tile_apply (x0 x1 : Vec Ideal S1024x1024 .bf16) (p q : Fin 1024) :
    k1_pay2 (F := Ideal) x0 x1 (ix2 p q)
      = ((∑ k : Fin 1024, x0 (ix2 p k) * x1 (ix2 q k)) * Ideal.ofBits .f32 0x3A800000#32 - Ideal.ofBits .f32 0xC4800000#32)
          * Ideal.ofBits .f32 0x3A000000#32 := by
  unfold k1_pay2
  rw [shapeCast_self, shapeCast_self]
  exact congrArg (fun z : EReal => (z * Ideal.ofBits .f32 0x3A800000#32 - Ideal.ofBits .f32 0xC4800000#32) * Ideal.ofBits .f32 0x3A000000#32)
    (tile_matmul_apply x0 x1 p q)

end Cert.KernelIdeal.Score

end
-- ==== Proof.ScoreBlockCell.lean ====
/-
  One entry of the score tile of a grid point.

  From the similarity tile s and the three per-row columns (lower threshold a, upper threshold b, exponent n) of the
  point's row block, entry (p, q) of what the body stores is
      1 where s > b, else 0 where s < a, else u / (u + v),
  with u = max (exp (n · log |s − a|)) ε and v = max (exp (n · log |b − s|)) ε, each column read at row p: the
  columns are spread along the rows, every other operation acts entry by entry.
-/
import proofs.«153212_j9964324127268_2_alg».proof.Proof.Gen.KernelIdeal.Skeleton
import proofs.«153212_j9964324127268_2_alg».proof.Proof.ScoreBlockSim
import proofs.«153212_j9964324127268_2_alg».proof.Proof.Spec
import proofs.«153212_j9964324127268_2_alg».proof.Proof.LibAxisReads
import Idealize.ShloMosaic.Lib.Pipeline.Value

noncomputable section

open Idealize.ShloMosaic Idealize.ShloMosaic.TcCoe Idealize.SL.Sem Idealize.ShloMosaic.ValueIdx

namespace Cert.KernelIdeal.Score

open Cert.KernelIdeal Cert.KernelIdeal.Gen

/-- Entry by entry: the two selections over the ratio, for a similarity tile and three tiles of thresholds and
    exponents, is the score of the four entries. -/
theorem score_pointwise (s a b n : FVec Ideal S1024x1024 .f32) (j : S1024x1024.Idx) :
    select (cmpf .ogt s b) (broadcast S1024x1024 (Scalar.ofBits (F := Ideal) .f32 0x3F800000#32))
        (select (cmpf .olt s a) (broadcast S1024x1024 (Scalar.ofBits (F := Ideal) .f32 0x00000000#32))
          (divf (maximumf (exp (mulf n (log (absf (subf s a))))) (broadcast S1024x1024 (Scalar.ofBits (F := Ideal) .f32 0x2B8CBCCC#32)))
            (addf (maximumf (exp (mulf n (log (absf (subf s a))))) (broadcast S1024x1024 (Scalar.ofBits (F := Ideal) .f32 0x2B8CBCCC#32)))
              (maximumf (exp (mulf n (log (absf (subf b s))))) (broadcast S1024x1024 (Scalar.ofBits (F := Ideal) .f32 0x2B8CBCCC#32)))))) j
      = Cert.Bridge.cell Cert.Bridge.pwK (s j) (a j) (b j) (n j) := rfl

/-- What the body stores, at (p, q): the score of the similarity entry and row p's three column entries. -/
theorem stored_apply (x0 x1 : Vec Ideal S1024x1024 .bf16) (x2 x3 x4 : Vec Ideal S1024x1 .f32) (p q : Fin 1024) :
    k1_pay1 (F := Ideal) (k1_pay2 x0 x1) (k1_pay4 x3) (k1_pay5 x0 x1 x2 x3 x4) (k1_pay6 x0 x1 x2) k1_pay7 (ix2 p q)
      = Cert.Bridge.cell Cert.Bridge.pwK (k1_pay2 (F := Ideal) x0 x1 (ix2 p q)) (x2 (ix2 p 0)) (x3 (ix2 p 0)) (x4 (ix2 p 0)) := by
  have h2 : broadcastTo S1024x1024 x2 broadcasts_S1024x1_S1024x1024 (ix2 p q) = x2 (ix2 p 0) :=
    Cert.AxisReads.broadcastTo_a1_ab_apply x2 broadcasts_S1024x1_S1024x1024 p q
  have h3 : broadcastTo S1024x1024 x3 broadcasts_S1024x1_S1024x1024 (ix2 p q) = x3 (ix2 p 0) :=
    Cert.AxisReads.broadcastTo_a1_ab_apply x3 broadcasts_S1024x1_S1024x1024 p q
  have h4 : broadcastTo S1024x1024 x4 broadcasts_S1024x1_S1024x1024 (ix2 p q) = x4 (ix2 p 0) :=
    Cert.AxisReads.broadcastTo_a1_ab_apply x4 broadcasts_S1024x1_S1024x1024 p q
  unfold k1_pay1 k1_pay5 k1_pay6 k1_pay7 k1_pay3 k1_pay4
  simp only [shapeCast_self]
  refine (score_pointwise (k1_pay2 (F := Ideal) x0 x1) (broadcastTo S1024x1024 x2 broadcasts_S1024x1_S1024x1024)
    (broadcastTo S1024x1024 x3 broadcasts_S1024x1_S1024x1024) (broadcastTo S1024x1024 x4 broadcasts_S1024x1_S1024x1024) (ix2 p q)).trans ?_
  rw [h2, h3, h4]

/-- The same with the similarity entry spelt out: row p of the first block against row q of the second. -/
theorem stored_apply_dot (x0 x1 : Vec Ideal S1024x1024 .bf16) (x2 x3 x4 : Vec Ideal S1024x1 .f32) (p q : Fin 1024) :
    k1_pay1 (F := Ideal) (k1_pay2 x0 x1) (k1_pay4 x3) (k1_pay5 x0 x1 x2 x3 x4) (k1_pay6 x0 x1 x2) k1_pay7 (ix2 p q)
      = Cert.Bridge.cell Cert.Bridge.pwK
          (((∑ k : Fin 1024, x0 (ix2 p k) * x1 (ix2 q k)) * Ideal.ofBits .f32 0x3A800000#32 - Ideal.ofBits .f32 0xC4800000#32)
            * Ideal.ofBits .f32 0x3A000000#32)
          (x2 (ix2 p 0)) (x3 (ix2 p 0)) (x4 (ix2 p 0)) :=
  (stored_apply x0 x1 x2 x3 x4 p q).trans
    (congrArg (fun z : EReal => Cert.Bridge.cell Cert.Bridge.pwK z (x2 (ix2 p 0)) (x3 (ix2 p 0)) (x4 (ix2 p 0))) (sim_tile_apply x0 x1 p q))

end Cert.KernelIdeal.Score

end
-- ==== Proof.ScoreBlock.lean ====
/-
  The score array after the second grid, as one function of the five arrays it reads.

  The grid is 8 × 8; point t = 8·i + j works on rows 1024·i … 1024·i + 1023 of x and of the three columns, on rows
  1024·j … 1024·j + 1023 of x_n, and writes the 1024 × 1024 block (i, j) of the score. Entry (p, q) of that block is the
  score of the similarity of row 1024·i + p of x with row 1024·j + q of x_n under row 1024·i + p's thresholds and
  exponent, which is entry (1024·i + p, 1024·j + q) of the whole-array function. The 64 blocks tile the array, so the
  array ends holding that function everywhere.
-/
import proofs.«153212_j9964324127268_2_alg».proof.Proof.Gen.KernelIdeal.Frame
import proofs.«153212_j9964324127268_2_alg».proof.Proof.Spec
import proofs.«153212_j9964324127268_2_alg».proof.Proof.LibAxisReads
import proofs.«153212_j9964324127268_2_alg».proof.Proof.ScoreBlockCell
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Score

open Cert.KernelIdeal Cert.KernelIdeal.Gen

theorem zero_offsets : (![0, 0] : Fin 2 → Nat) = fun _ => 0 := funext fun a => by fin_cases a <;> rfl

/-- What the body leaves in the output's buffer, at (p, q), from the five input blocks. -/
theorem out_apply (x0 x1 : Vec Ideal S1024x1024 .bf16) (x2 x3 x4 : Vec Ideal S1024x1 .f32) (p q : Fin 1024) :
    out1_5 (F := Ideal) x0 x1 x2 x3 x4 (ix2 p q)
      = Cert.Bridge.cell Cert.Bridge.pwK
          (((∑ k : Fin 1024, x0 (ix2 p k) * x1 (ix2 q k)) * Ideal.ofBits .f32 0x3A800000#32 - Ideal.ofBits .f32 0xC4800000#32)
            * Ideal.ofBits .f32 0x3A000000#32)
          (x2 (ix2 p 0)) (x3 (ix2 p 0)) (x4 (ix2 p 0)) := by
  unfold out1_5
  rw [View.canon_unit_zero zero_offsets]
  simp only [View.ld_unit_zero (S := S1024x1024) zero_offsets, View.ld_unit_zero (S := S1024x1) zero_offsets]
  exact stored_apply_dot x0 x1 x2 x3 x4 p q

/-- The index maps over the grid: point t is at block row t / 8 and block column t % 8; x and the three columns
    move with the block row, x_n with the block column, the output with both. -/
theorem index_maps : ∀ t : Fin cfg1.N,
    win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val / 8 ∧ win1_2.index t (1 : Fin 2) = 0
    ∧ win1_3.index t (0 : Fin 2) = t.val / 8 ∧ win1_3.index t (1 : Fin 2) = 0
    ∧ win1_4.index t (0 : Fin 2) = t.val / 8 ∧ win1_4.index t (1 : Fin 2) = 0
    ∧ win1_5.index t (0 : Fin 2) = t.val / 8 ∧ win1_5.index t (1 : Fin 2) = t.val % 8 :=
  (by decide +kernel : ∀ t : Fin grid1.N, _)

/-- The whole-array score at (r, s), spelt out. -/
theorem scoreCols_apply (x xn : Cert.Bridge.SX.Idx → EReal) (a b n : Cert.Bridge.SC.Idx → EReal) (r s : Fin 8192) :
    Cert.Bridge.scoreCols x xn a b n (ix2 r s)
      = Cert.Bridge.cell Cert.Bridge.pwK
          (((∑ k : Fin 1024, x (ix2 r k) * xn (ix2 s k)) * Ideal.ofBits .f32 0x3A800000#32 - Ideal.ofBits .f32 0xC4800000#32)
            * Ideal.ofBits .f32 0x3A000000#32)
          (a (ix2 r 0)) (b (ix2 r 0)) (n (ix2 r 0)) := rfl

/-- Equal similarities, thresholds and exponents give equal scores. -/
theorem cell_congr {s s' a a' b b' n n' : EReal} (hs : s = s') (ha : a = a') (hb : b = b') (hn : n = n') :
    Cert.Bridge.cell Cert.Bridge.pwK s a b n = Cert.Bridge.cell Cert.Bridge.pwK s' a' b' n' := by
  subst hs ha hb hn; rfl

variable (V : (c : Dev nD) → (b : Ref sig .tc) → Buf (Elt Ideal) ((c : Thread nD τ).loc b))

/-- The block of x at point t, at (p, k): row 1024·(t / 8) + p of x. -/
theorem xblock_apply (c : Dev nD) (t : Fin cfg1.N) (p k : Fin 1024) (r : Fin 8192) (hr : r.val = t.val / 8 * 1024 + p.val) :
    (iblk1 (F := Ideal) V c 0 t : Vec Ideal S1024x1024 .bf16) (ix2 p k) = (V c main_v21 : Cert.Bridge.SX.Idx → EReal) (ix2 r k) := by
  obtain ⟨e0, e1, -⟩ := index_maps t
  unfold iblk1
  rw [View.read_apply]
  show V c main_v21 _ = V c main_v21 _
  refine congrArg (V c main_v21) (funext fun a => Fin.ext ?_)
  match a with
  | ⟨0, _⟩ => show win1_0.index t (0 : Fin 2) * 1024 + 1 * p.val = r.val; rw [e0, hr]; omega
  | ⟨1, _⟩ => show win1_0.index t (1 : Fin 2) * 1024 + 1 * k.val = k.val; rw [e1]; omega

/-- The block of x_n at point t, at (q, k): row 1024·(t % 8) + q of x_n. -/
theorem xnblock_apply (c : Dev nD) (t : Fin cfg1.N) (q k : Fin 1024) (r : Fin 8192) (hr : r.val = t.val % 8 * 1024 + q.val) :
    (iblk1 (F := Ideal) V c 1 t : Vec Ideal S1024x1024 .bf16) (ix2 q k) = (V c main_v22 : Cert.Bridge.SX.Idx → EReal) (ix2 r k) := by
  obtain ⟨-, -, e0, e1, -⟩ := index_maps t
  unfold iblk1
  rw [View.read_apply]
  show V c main_v22 _ = V c main_v22 _
  refine congrArg (V c main_v22) (funext fun a => Fin.ext ?_)
  match a with
  | ⟨0, _⟩ => show win1_1.index t (0 : Fin 2) * 1024 + 1 * q.val = r.val; rw [e0, hr]; omega
  | ⟨1, _⟩ => show win1_1.index t (1 : Fin 2) * 1024 + 1 * k.val = k.val; rw [e1]; omega

/-- The block of the lower thresholds at point t, at row p: row 1024·(t / 8) + p of the column. -/
theorem ablock_apply (c : Dev nD) (t : Fin cfg1.N) (p : Fin 1024) (r : Fin 8192) (hr : r.val = t.val / 8 * 1024 + p.val) :
    (iblk1 (F := Ideal) V c 2 t : Vec Ideal S1024x1 .f32) (ix2 p 0) = (V c main_v26 : Cert.Bridge.SC.Idx → EReal) (ix2 r 0) := by
  obtain ⟨-, -, -, -, e0, e1, -⟩ := index_maps t
  unfold iblk1
  rw [View.read_apply]
  show V c main_v26 _ = V c main_v26 _
  refine congrArg (V c main_v26) (funext fun a => Fin.ext ?_)
  match a with
  | ⟨0, _⟩ => show win1_2.index t (0 : Fin 2) * 1024 + 1 * p.val = r.val; rw [e0, hr]; omega
  | ⟨1, _⟩ => show win1_2.index t (1 : Fin 2) * 1 + 1 * 0 = 0; rw [e1]

/-- The block of the upper thresholds at point t, at row p. -/
theorem bblock_apply (c : Dev nD) (t : Fin cfg1.N) (p : Fin 1024) (r : Fin 8192) (hr : r.val = t.val / 8 * 1024 + p.val) :
    (iblk1 (F := Ideal) V c 3 t : Vec Ideal S1024x1 .f32) (ix2 p 0) = (V c main_v18 : Cert.Bridge.SC.Idx → EReal) (ix2 r 0) := by
  obtain ⟨-, -, -, -, -, -, e0, e1, -⟩ := index_maps t
  unfold iblk1
  rw [View.read_apply]
  show V c main_v18 _ = V c main_v18 _
  refine congrArg (V c main_v18) (funext fun a => Fin.ext ?_)
  match a with
  | ⟨0, _⟩ => show win1_3.index t (0 : Fin 2) * 1024 + 1 * p.val = r.val; rw [e0, hr]; omega
  | ⟨1, _⟩ => show win1_3.index t (1 : Fin 2) * 1 + 1 * 0 = 0; rw [e1]

/-- The block of the exponents at point t, at row p. -/
theorem nblock_apply (c : Dev nD) (t : Fin cfg1.N) (p : Fin 1024) (r : Fin 8192) (hr : r.val = t.val / 8 * 1024 + p.val) :
    (iblk1 (F := Ideal) V c 4 t : Vec Ideal S1024x1 .f32) (ix2 p 0) = (V c main_v20 : Cert.Bridge.SC.Idx → EReal) (ix2 r 0) := by
  obtain ⟨-, -, -, -, -, -, -, -, e0, e1, -⟩ := index_maps t
  unfold iblk1
  rw [View.read_apply]
  show V c main_v20 _ = V c main_v20 _
  refine congrArg (V c main_v20) (funext fun a => Fin.ext ?_)
  match a with
  | ⟨0, _⟩ => show win1_4.index t (0 : Fin 2) * 1024 + 1 * p.val = r.val; rw [e0, hr]; omega
  | ⟨1, _⟩ => show win1_4.index t (1 : Fin 2) * 1 + 1 * 0 = 0; rw [e1]

/-- Entry (p, q) of the output's block at point t is entry (1024·(t / 8) + p, 1024·(t % 8) + q) of the array. -/
theorem oblock_emb (t : Fin cfg1.N) (p q : Fin 1024) (r s : Fin 8192) (hr : r.val = t.val / 8 * 1024 + p.val)
    (hs : s.val = t.val % 8 * 1024 + q.val) :
    ((cfg1.win 5).blk t).view.emb (ix2 p q) = (ix2 r s : S8192x8192.Idx) := by
  obtain ⟨-, -, -, -, -, -, -, -, -, -, e0, e1⟩ := index_maps t
  refine funext fun a => Fin.ext ?_
  match a with
  | ⟨0, _⟩ => show win1_5.index t (0 : Fin 2) * 1024 + 1 * p.val = r.val; rw [e0, hr]; omega
  | ⟨1, _⟩ => show win1_5.index t (1 : Fin 2) * 1024 + 1 * q.val = s.val; rw [e1, hs]; omega

/-- What point t writes back is block t of the whole-array score. -/
theorem flushed_eq (c : Dev nD) (t : Fin cfg1.N) :
    (dat1 (F := Ideal) V c).flushed 5 t
      = ((cfg1.win 5).blk t).view.read (Elt Ideal)
          (Cert.Bridge.scoreCols (V c main_v21) (V c main_v22) (V c main_v26) (V c main_v18) (V c main_v20)) := by
  show (cfg1.win 5).cut (grid1.coords t) ((dat1 V c).after 5 t) = _
  rw [after1_5]
  refine funext fun (j : S1024x1024.Idx) => ?_
  obtain ⟨p, q, rfl⟩ : ∃ (p : Fin 1024) (q : Fin 1024), j = ix2 p q := ⟨j 0, j 1, eq_ix2 j⟩
  have ht : t.val < 64 := Nat.lt_of_lt_of_eq t.isLt N_1
  obtain ⟨r, hr⟩ : ∃ r : Fin 8192, r.val = t.val / 8 * 1024 + p.val := ⟨⟨t.val / 8 * 1024 + p.val, by omega⟩, rfl⟩
  obtain ⟨s, hs⟩ : ∃ s : Fin 8192, s.val = t.val % 8 * 1024 + q.val := ⟨⟨t.val % 8 * 1024 + q.val, by omega⟩, rfl⟩
  show out1_5 (iblk1 V c 0 t) (iblk1 V c 1 t) (iblk1 V c 2 t) (iblk1 V c 3 t) (iblk1 V c 4 t) (ix2 p q)
    = Cert.Bridge.scoreCols (V c main_v21) (V c main_v22) (V c main_v26) (V c main_v18) (V c main_v20)
        (((cfg1.win 5).blk t).view.emb (ix2 p q))
  refine (out_apply (iblk1 V c 0 t) (iblk1 V c 1 t) (iblk1 V c 2 t) (iblk1 V c 3 t) (iblk1 V c 4 t) p q).trans ?_
  refine Eq.trans ?_ (congrArg (Cert.Bridge.scoreCols (V c main_v21) (V c main_v22) (V c main_v26) (V c main_v18) (V c main_v20))
    (oblock_emb t p q r s hr hs).symm)
  refine Eq.trans ?_ (scoreCols_apply (V c main_v21) (V c main_v22) (V c main_v26) (V c main_v18) (V c main_v20) r s).symm
  exact cell_congr
    (congrArg (fun z : EReal => (z * Ideal.ofBits .f32 0x3A800000#32 - Ideal.ofBits .f32 0xC4800000#32) * Ideal.ofBits .f32 0x3A000000#32)
      (Finset.sum_congr rfl fun k _ =>
        congrArg₂ (fun u v : EReal => u * v) (xblock_apply V c t p k r hr) (xnblock_apply V c t q k s hs)))
    (ablock_apply V c t p r hr) (bblock_apply V c t p r hr) (nblock_apply V c t p r hr)

/-- An index of the array is in point t's block iff each coordinate is in the block's range on its axis. -/
theorem mem_block (t : Fin cfg1.N) (i : S8192x8192.Idx) :
    i ∈ ((cfg1.win 5).blk t).view.set ↔ ∀ a : Fin 2, win1_5.index t a * S1024x1024.size a ≤ (i a).val
      ∧ (i a).val < win1_5.index t a * S1024x1024.size a + S1024x1024.size a := by
  show i ∈ ((View.whole main_v27).slice (win1_5.rect t)).set ↔ _
  rw [View.set_slice_whole, Rect.mem_set_unit]
  exact Iff.rfl

/-- Every entry of the array is in the block of the point at its block row and block column. -/
theorem covered (i : S8192x8192.Idx) : ∃ t : Fin cfg1.N, (cfg1.win 5).flush t = true ∧ i ∈ ((cfg1.win 5).blk t).view.set := by
  have h0 : (i 0).val < 8192 := (i 0).isLt
  have h1 : (i 1).val < 8192 := (i 1).isLt
  have hN : cfg1.N = 64 := N_1
  obtain ⟨t, ht⟩ : ∃ t : Fin cfg1.N, t.val = (i 0).val / 1024 * 8 + (i 1).val / 1024 :=
    ⟨⟨(i 0).val / 1024 * 8 + (i 1).val / 1024, by rw [hN]; omega⟩, rfl⟩
  obtain ⟨-, -, -, -, -, -, -, -, -, -, e0, e1⟩ := index_maps t
  refine ⟨t, flush1_5 t, ?_⟩
  rw [mem_block]
  intro a
  match a with
  | ⟨0, _⟩ => show win1_5.index t (0 : Fin 2) * 1024 ≤ (i 0).val ∧ (i 0).val < win1_5.index t (0 : Fin 2) * 1024 + 1024; rw [e0, ht]; omega
  | ⟨1, _⟩ => show win1_5.index t (1 : Fin 2) * 1024 ≤ (i 1).val ∧ (i 1).val < win1_5.index t (1 : Fin 2) * 1024 + 1024; rw [e1, ht]; omega

/-- The score array after the second grid: the whole-array score of x, x_n and the three columns as the region finds them. -/
theorem score_final (c : Dev nD) :
    (dat1 (F := Ideal) V c).arrAt 5 cfg1.N
      = Cert.Bridge.scoreCols (V c main_v21) (V c main_v22) (V c main_v26) (V c main_v18) (V c main_v20) :=
  (dat1 (F := Ideal) V c).arrAt_eq_of_cover 5
    (Cert.Bridge.scoreCols (V c main_v21) (V c main_v22) (V c main_v26) (V c main_v18) (V c main_v20))
    (fun t _ => flushed_eq V c t) covered

end Cert.KernelIdeal.Score

end
-- ==== Proof.KernelValue.lean ====
/-
  The kernel program's result is the score, in product-and-exp-log form.

  The second grid computation leaves, in its output array, the score of every entry from the similarity tile it
  recomputes and the three per-row columns it is entered with. Those columns are the thresholds and the exponent of
  the specification — the lower threshold from the row maxima the first grid computation left — and the two matrices
  are x and x_n as launched. So every weakly fair execution of the program ends with the result buffer at the score of
  x, x_n and the clipped parameters, the arguments unchanged.
-/
import proofs.«153212_j9964324127268_2_alg».proof.Proof.KernelEntry
import proofs.«153212_j9964324127268_2_alg».proof.Proof.KernelRun
import proofs.«153212_j9964324127268_2_alg».proof.Proof.ScoreBlock

noncomputable section

namespace Cert.KernelIdeal.Value

open Idealize.ShloMosaic Idealize.ShloMosaic.TcCoe Idealize.SL.Sem
open Idealize.ShloMosaic.ValueIdx
open Cert.KernelIdeal Cert.KernelIdeal.Gen Cert.KernelIdeal.Entry

variable (m : (ℓ : Loc nD τ sig) → Buf (Elt Ideal) ℓ) (ρ : Dev nD → PrngReg)

/-- The second grid computation's output array ends at the score of x, x_n as launched and the clipped parameters. -/
theorem kernel_value (c : Dev nD) :
    (dat1 (F := Ideal) (V5 m ρ) c).arrAt 5 cfg1.N
      = Cert.Bridge.scoreK (m ((c.tc : Thread nD τ).loc main_arg0)) (m ((c.tc : Thread nD τ).loc main_arg1)) (params m ρ c) := by
  rw [Cert.KernelIdeal.Score.score_final (V5 m ρ) c]
  have hx : (V5 m ρ c main_v21 : S8192x1024.Idx → EReal) = m ((c.tc : Thread nD τ).loc main_arg0) := funext (x5_at m ρ c)
  have hxn : (V5 m ρ c main_v22 : S8192x1024.Idx → EReal) = m ((c.tc : Thread nD τ).loc main_arg1) := funext (xn5_at m ρ c)
  rw [hx, hxn]
  funext y
  obtain ⟨i, j, rfl⟩ : ∃ (i : Fin 8192) (j : Fin 8192), y = ix2 i j := ⟨y 0, y 1, eq_ix2 y⟩
  show Cert.Bridge.cell Cert.Bridge.pwK
      (Cert.Bridge.simK (m ((c.tc : Thread nD τ).loc main_arg0)) (m ((c.tc : Thread nD τ).loc main_arg1)) i j)
      (V5 m ρ c main_v26 (ix2 i (0 : Fin 1))) (V5 m ρ c main_v18 (ix2 i (0 : Fin 1))) (V5 m ρ c main_v20 (ix2 i (0 : Fin 1)))
    = Cert.Bridge.cell Cert.Bridge.pwK
      (Cert.Bridge.simK (m ((c.tc : Thread nD τ).loc main_arg0)) (m ((c.tc : Thread nD τ).loc main_arg1)) i j)
      (Cert.Bridge.thrA (params m ρ c)
        (Cert.Bridge.rowMaxOf (Cert.Bridge.simK (m ((c.tc : Thread nD τ).loc main_arg0)) (m ((c.tc : Thread nD τ).loc main_arg1)))) i)
      (Cert.Bridge.thrB (params m ρ c) i) (Cert.Bridge.expo (params m ρ c) i)
  rw [a5_at m ρ c i, b5_at m ρ c i, n5_at m ρ c i]

/-- Every weakly fair execution of the kernel program ends with the result buffer at that score and the arguments
    unchanged. -/
theorem run : θ_run defs (onTc (τ := τ) (main (F := Ideal))) ⟨m, fun _ => 0, ρ⟩ (fun r => ∀ c : Dev nD,
      r.2.mem ((c.tc : Thread nD τ).loc main_v27)
        = Cert.Bridge.scoreK (m ((c.tc : Thread nD τ).loc main_arg0)) (m ((c.tc : Thread nD τ).loc main_arg1)) (params m ρ c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (kernel_value m ρ c), (h c).2⟩)
    (Cert.KernelIdeal.Run.run_score (F := Ideal) m ρ)

end Cert.KernelIdeal.Value

end
-- ==== Proof.RefScoreSim.lean ====
/-
  The reference's similarity entry and its row maximum, read one operation at a time.

  The entry (i, j) of the normalised similarity is the dot product of row i of x with row j of x_n over the 1024
  features, divided by 1024, less -1024, divided by 2048. The maximum along axis 1 from -∞, at row i, is the fold of
  max over the 8192 entries of that row.
-/
import proofs.«153212_j9964324127268_2_alg».proof.Proof.Gen.ReferenceIdeal.Read
import proofs.«153212_j9964324127268_2_alg».proof.Proof.Spec
import proofs.«153212_j9964324127268_2_alg».proof.Proof.LibAxisReads

noncomputable section

open Idealize.ShloMosaic Idealize.ShloMosaic.TcCoe Idealize.SL.Sem

namespace Cert.ReferenceIdeal.RefValue

open Cert.ReferenceIdeal Cert.ReferenceIdeal.Gen Cert.ReferenceIdeal.Read
open Idealize.ShloMosaic.ValueIdx

/-- The left operand of the product at entry (i, j), position k: x at (i, k). -/
theorem lidx20_ix2 (i j : Fin 8192) (k : Fin 1024) : lidx_main_v20 (ix2 i j) k = ix2 i k :=
  funext fun a => Fin.ext (by match a with | ⟨0, _⟩ => rfl | ⟨1, _⟩ => rfl)

/-- The right operand, through the transposition: x_n at (j, k). -/
theorem ridx20_ix2 (i j : Fin 8192) (k : Fin 1024) : idx_main_v19 (ridx_main_v20 (ix2 i j) k) = ix2 j k :=
  funext fun a => Fin.ext (by match a with | ⟨0, _⟩ => rfl | ⟨1, _⟩ => rfl)

/-- The product's entry (i, j) is the dot product of row i of x with row j of x_n. -/
theorem dot_apply (x0 x1 : (⟨S8192x1024, .f32⟩ : BufTy).Contents (Elt Ideal)) (i j : Fin 8192) :
    val_main_v20 (F := Ideal) x0 x1 (ix2 i j) = Cert.Bridge.dot x0 x1 i j := by
  rw [val_main_v20_apply]
  unfold Cert.Bridge.dot
  refine Finset.sum_congr rfl fun k _ => ?_
  rw [val_main_v19_apply, lidx20_ix2, ridx20_ix2]

/-- The normalised similarity's entry (i, j). -/
theorem sim_apply (x0 x1 : (⟨S8192x1024, .f32⟩ : BufTy).Contents (Elt Ideal)) (i j : Fin 8192) :
    val_main_v26 (F := Ideal) x0 x1 (ix2 i j) = Cert.Bridge.simR x0 x1 i j := by
  rw [val_main_v26_apply, val_main_v24_apply, val_main_v22_apply, dot_apply, val_main_v21_apply, val_main_v23_apply,
    val_main_v25_apply, val_main_cst_4_apply, val_main_cst_5_apply, val_main_cst_6_apply]
  rfl

/-- The host's reduction with a maximum body over the second axis of a rank-2 array, at row i: the fold of max from
    the initial value over the entries (i, ·). -/
theorem hostMax2_last_apply {a b : Nat} (x : FVec Ideal (⟨2, ![a, b]⟩ : Shape) .f32) (init : FVec Ideal (⟨0, ![]⟩ : Shape) .f32)
    (h' : (⟨2, ![a, b]⟩ : Shape).ReducesTo [1] (⟨1, ![a]⟩ : Shape)) (hu : 0 < (⟨0, ![]⟩ : Shape).numel) (i : Fin a) :
    Host.reduce FloatOps.maximumf x init h' hu (ix1 i)
      = (Finset.univ : Finset (Fin b)).fold max (init (Shape.Idx.first hu)) fun k => x (ix2 i k) := by
  have h : (⟨2, ![a, b]⟩ : Shape).Reduces [1] (⟨1, ![a]⟩ : Shape) := ⟨h'.1, Nat.zero_lt_one, h'.2⟩
  refine (Host.reduce_eq_fold_single FloatOps.maximumf x init h' h hu (ix1 i)).trans ?_
  have hf : (x ∘ h.lift (ix1 i)) = fun k : Fin b => x (ix2 i k) :=
    funext fun k => congrArg x (Cert.AxisReads.lift2_axis1 h i k)
  exact congrArg (fun f => Finset.fold max (init (Shape.Idx.first hu)) f (Finset.univ : Finset (Fin b))) hf

/-- The reference's row maximum at row i is the specification's, of the similarity in quotient form. -/
theorem rowMax_apply (x0 x1 : (⟨S8192x1024, .f32⟩ : BufTy).Contents (Elt Ideal)) (i : Fin 8192) :
    val_main_v27 (F := Ideal) x0 x1 (ix1 i) = Cert.Bridge.rowMaxOf (Cert.Bridge.simR x0 x1) i := by
  unfold val_main_v27
  refine (hostMax2_last_apply (a := 8192) (b := 8192) (val_main_v26 (F := Ideal) x0 x1) (val_main_cst_7 (F := Ideal))
    reducesTo_S8192x8192_S8192_d1 h_S_ i).trans ?_
  unfold Cert.Bridge.rowMaxOf
  have hf : (fun k : Fin 8192 => val_main_v26 (F := Ideal) x0 x1 (ix2 i k)) = fun k => Cert.Bridge.simR x0 x1 i k :=
    funext fun k => sim_apply x0 x1 i k
  rw [hf]
  rfl

end Cert.ReferenceIdeal.RefValue

end
-- ==== Proof.RefScore.lean ====
/-
  The reference's three per-row columns and its score entry, read one operation at a time.

  From the clipped parameters P[i, 0..2] = (a₀, b₀, n₀) the reference forms, per row i, the upper threshold
  a₀ + b₀ · (1 - a₀), the lower threshold min a₀ (row maximum) - ε and the exponent 1 / n₀, each as a column [8192, 1]
  spread over the 8192 columns. The entry (i, j) of the result is then the score of the similarity entry (i, j)
  against row i's two thresholds and exponent: u / (u + v) with u = max (|sim - a| ^ n) ε, v = max (|b - sim| ^ n) ε,
  then 0 where sim < a, then 1 where sim > b.
-/
import proofs.«153212_j9964324127268_2_alg».proof.Proof.RefScoreSim

noncomputable section

open Idealize.ShloMosaic Idealize.ShloMosaic.TcCoe Idealize.SL.Sem

namespace Cert.ReferenceIdeal.RefValue

open Cert.ReferenceIdeal Cert.ReferenceIdeal.Gen Cert.ReferenceIdeal.Read
open Idealize.ShloMosaic.ValueIdx

/-! ## Where the layout operations read -/

/-- The three slices of P read, at row i of their one column, P's columns 0, 1 and 2. -/
theorem idx12_ix2 (i : Fin 8192) : idx_main_v12 (ix2 i (0 : Fin 1)) = ix2 i (0 : Fin 3) :=
  funext fun a => Fin.ext (by match a with | ⟨0, _⟩ => rfl | ⟨1, _⟩ => rfl)
theorem idx13_ix2 (i : Fin 8192) : idx_main_v13 (ix2 i (0 : Fin 1)) = ix2 i (1 : Fin 3) :=
  funext fun a => Fin.ext (by match a with | ⟨0, _⟩ => rfl | ⟨1, _⟩ => rfl)
theorem idx14_ix2 (i : Fin 8192) : idx_main_v14 (ix2 i (0 : Fin 1)) = ix2 i (2 : Fin 3) :=
  funext fun a => Fin.ext (by match a with | ⟨0, _⟩ => rfl | ⟨1, _⟩ => rfl)

/-- The row maxima kept as a column read, at row i, the maximum of row i. -/
theorem idx28_ix2 (i : Fin 8192) : idx_main_v28 (ix2 i (0 : Fin 1)) = ix1 i :=
  funext fun a => Fin.ext (by match a with | ⟨0, _⟩ => rfl)

/-- A column spread over the 8192 columns reads, at (i, j), the column's row i. -/
theorem idx34_ix2 (i j : Fin 8192) : idx_main_v34 (ix2 i j) = ix2 i (0 : Fin 1) :=
  funext fun a => Fin.ext (by match a with | ⟨0, _⟩ => rfl | ⟨1, _⟩ => rfl)
theorem idx37_ix2 (i j : Fin 8192) : idx_main_v37 (ix2 i j) = ix2 i (0 : Fin 1) :=
  funext fun a => Fin.ext (by match a with | ⟨0, _⟩ => rfl | ⟨1, _⟩ => rfl)
theorem idx41_ix2 (i j : Fin 8192) : idx_main_v41 (ix2 i j) = ix2 i (0 : Fin 1) :=
  funext fun a => Fin.ext (by match a with | ⟨0, _⟩ => rfl | ⟨1, _⟩ => rfl)
theorem idx44_ix2 (i j : Fin 8192) : idx_main_v44 (ix2 i j) = ix2 i (0 : Fin 1) :=
  funext fun a => Fin.ext (by match a with | ⟨0, _⟩ => rfl | ⟨1, _⟩ => rfl)
theorem idx50_ix2 (i j : Fin 8192) : idx_main_v50 (ix2 i j) = ix2 i (0 : Fin 1) :=
  funext fun a => Fin.ext (by match a with | ⟨0, _⟩ => rfl | ⟨1, _⟩ => rfl)
theorem idx53_ix2 (i j : Fin 8192) : idx_main_v53 (ix2 i j) = ix2 i (0 : Fin 1) :=
  funext fun a => Fin.ext (by match a with | ⟨0, _⟩ => rfl | ⟨1, _⟩ => rfl)

/-! ## The three columns at row i -/

/-- The upper threshold of row i: a₀ + b₀ · (1 - a₀). -/
theorem thrB_apply (x0 : (⟨S8192x1024, .f32⟩ : BufTy).Contents (Elt Ideal)) (x2 : (⟨S3x1024, .f32⟩ : BufTy).Contents (Elt Ideal))
    (x3 : (⟨S3, .f32⟩ : BufTy).Contents (Elt Ideal)) (i : Fin 8192) :
    val_main_v18 (F := Ideal) x0 x2 x3 (ix2 i (0 : Fin 1)) = Cert.Bridge.thrB (val_main_v11 (F := Ideal) x0 x2 x3) i := by
  rw [val_main_v18_apply, val_main_v17_apply, val_main_v16_apply, val_main_v15_apply, val_main_cst_3_apply,
    val_main_v12_apply, val_main_v13_apply, idx12_ix2, idx13_ix2]
  rfl

/-- The lower threshold of row i: the smaller of a₀ and the row's largest similarity, less ε. -/
theorem thrA_apply (x0 x1 : (⟨S8192x1024, .f32⟩ : BufTy).Contents (Elt Ideal)) (x2 : (⟨S3x1024, .f32⟩ : BufTy).Contents (Elt Ideal))
    (x3 : (⟨S3, .f32⟩ : BufTy).Contents (Elt Ideal)) (i : Fin 8192) :
    val_main_v31 (F := Ideal) x0 x1 x2 x3 (ix2 i (0 : Fin 1))
      = Cert.Bridge.thrA (val_main_v11 (F := Ideal) x0 x2 x3) (Cert.Bridge.rowMaxOf (Cert.Bridge.simR x0 x1)) i := by
  rw [val_main_v31_apply, val_main_v29_apply, val_main_v30_apply, val_main_cst_8_apply, val_main_v12_apply,
    val_main_v28_apply, idx12_ix2, idx28_ix2, rowMax_apply]
  rfl

/-- The exponent of row i: 1 / n₀. -/
theorem expo_apply (x0 : (⟨S8192x1024, .f32⟩ : BufTy).Contents (Elt Ideal)) (x2 : (⟨S3x1024, .f32⟩ : BufTy).Contents (Elt Ideal))
    (x3 : (⟨S3, .f32⟩ : BufTy).Contents (Elt Ideal)) (i : Fin 8192) :
    val_main_v33 (F := Ideal) x0 x2 x3 (ix2 i (0 : Fin 1)) = Cert.Bridge.expo (val_main_v11 (F := Ideal) x0 x2 x3) i := by
  rw [val_main_v33_apply, val_main_v32_apply, val_main_cst_9_apply, val_main_v14_apply, idx14_ix2]
  rfl

/-! ## The score entry -/

/-- u = max (|sim - a| ^ n) ε at (i, j). -/
theorem num_apply (x0 x1 : (⟨S8192x1024, .f32⟩ : BufTy).Contents (Elt Ideal)) (x2 : (⟨S3x1024, .f32⟩ : BufTy).Contents (Elt Ideal))
    (x3 : (⟨S3, .f32⟩ : BufTy).Contents (Elt Ideal)) (i j : Fin 8192) :
    val_main_v40 (F := Ideal) x0 x1 x2 x3 (ix2 i j)
      = max (Ideal.pow (FloatOps.absf (F := Ideal) (φ := .f32) (Cert.Bridge.simR x0 x1 i j
          - Cert.Bridge.thrA (val_main_v11 (F := Ideal) x0 x2 x3) (Cert.Bridge.rowMaxOf (Cert.Bridge.simR x0 x1)) i))
          (Cert.Bridge.expo (val_main_v11 (F := Ideal) x0 x2 x3) i)) Cert.Bridge.eps := by
  rw [val_main_v40_apply, val_main_v38_apply, val_main_v36_apply, val_main_v35_apply, val_main_v34_apply, val_main_v37_apply,
    val_main_v39_apply, val_main_cst_10_apply, idx34_ix2, idx37_ix2, sim_apply, thrA_apply, expo_apply]
  rfl

/-- v = max (|b - sim| ^ n) ε at (i, j). -/
theorem den2_apply (x0 x1 : (⟨S8192x1024, .f32⟩ : BufTy).Contents (Elt Ideal)) (x2 : (⟨S3x1024, .f32⟩ : BufTy).Contents (Elt Ideal))
    (x3 : (⟨S3, .f32⟩ : BufTy).Contents (Elt Ideal)) (i j : Fin 8192) :
    val_main_v47 (F := Ideal) x0 x1 x2 x3 (ix2 i j)
      = max (Ideal.pow (FloatOps.absf (F := Ideal) (φ := .f32) (Cert.Bridge.thrB (val_main_v11 (F := Ideal) x0 x2 x3) i
          - Cert.Bridge.simR x0 x1 i j)) (Cert.Bridge.expo (val_main_v11 (F := Ideal) x0 x2 x3) i)) Cert.Bridge.eps := by
  rw [val_main_v47_apply, val_main_v45_apply, val_main_v43_apply, val_main_v42_apply, val_main_v41_apply, val_main_v44_apply,
    val_main_v46_apply, val_main_cst_11_apply, idx41_ix2, idx44_ix2, sim_apply, thrB_apply, expo_apply]
  rfl

/-- The reference's result at (i, j) is the score of the similarity entry against row i's thresholds and exponent. -/
theorem cell_apply (x0 x1 : (⟨S8192x1024, .f32⟩ : BufTy).Contents (Elt Ideal)) (x2 : (⟨S3x1024, .f32⟩ : BufTy).Contents (Elt Ideal))
    (x3 : (⟨S3, .f32⟩ : BufTy).Contents (Elt Ideal)) (i j : Fin 8192) :
    val_main_v55 (F := Ideal) x0 x1 x2 x3 (ix2 i j)
      = Cert.Bridge.cell Ideal.pow (Cert.Bridge.simR x0 x1 i j)
          (Cert.Bridge.thrA (val_main_v11 (F := Ideal) x0 x2 x3) (Cert.Bridge.rowMaxOf (Cert.Bridge.simR x0 x1)) i)
          (Cert.Bridge.thrB (val_main_v11 (F := Ideal) x0 x2 x3) i) (Cert.Bridge.expo (val_main_v11 (F := Ideal) x0 x2 x3) i) := by
  rw [val_main_v55_apply, val_main_v54_apply, val_main_v53_apply, val_main_call2_v1_apply, val_main_call2_v0_apply,
    val_main_cst_13_apply, val_main_v52_apply, val_main_v51_apply, val_main_v50_apply, val_main_call1_v1_apply,
    val_main_call1_v0_apply, val_main_cst_12_apply, val_main_v49_apply, val_main_v48_apply, num_apply, den2_apply,
    idx50_ix2, idx53_ix2, sim_apply, thrA_apply, thrB_apply]
  rfl

/-- The reference's result is the specification's quotient-and-power form of the score, over the clipped parameters. -/
theorem ref_eq (x0 x1 : (⟨S8192x1024, .f32⟩ : BufTy).Contents (Elt Ideal)) (x2 : (⟨S3x1024, .f32⟩ : BufTy).Contents (Elt Ideal))
    (x3 : (⟨S3, .f32⟩ : BufTy).Contents (Elt Ideal)) :
    val_main_v55 (F := Ideal) x0 x1 x2 x3 = Cert.Bridge.scoreR x0 x1 (val_main_v11 (F := Ideal) x0 x2 x3) := by
  funext y
  obtain ⟨i, j, rfl⟩ : ∃ (i : Fin 8192) (j : Fin 8192), y = ix2 i j := ⟨y 0, y 1, eq_ix2 y⟩
  exact cell_apply x0 x1 x2 x3 i j

end Cert.ReferenceIdeal.RefValue

end
-- ==== Proof.PowLaw.lean ====
/-
  The scalar laws that join the two spellings of the score.

  * The words: 1024, 2048 and their reciprocals 2⁻¹⁰, 2⁻¹¹ are exact; ε is a positive real below 1; 1.0 is 1.
  * A quotient by a nonzero real is the product with its reciprocal on every extended real, so the similarity
    written with quotients by 1024 and 2048 is the one written with products by 2⁻¹⁰ and 2⁻¹¹.
  * The power: for a base d ≥ 0 (the infinity included) and a real exponent y > 0, d ^ y = exp (y · log d).
      d = 0      : log 0 = -∞, y · (-∞) = -∞, exp (-∞) = 0 = 0 ^ y   (y ≠ 0)
      0 < d < ∞  : d ^ y = exp (log d · y), the real power of a positive base
      d = +∞     : log ∞ = ∞, y · ∞ = ∞, exp ∞ = ∞ = ∞ ^ y           (y > 0)
    An absolute value max x (-x) is ≥ 0, and the exponent 1 / n₀ of a row is a positive real as soon as n₀ is one —
    which the clip into [ε, 1] gives, whatever was clipped.
  So the quotient-and-power form of the score is the product-and-exp-log form.
-/
import proofs.«153212_j9964324127268_2_alg».proof.Proof.Spec

noncomputable section

namespace Cert.Bridge

open Idealize.ShloMosaic Idealize.ShloMosaic.ValueIdx

/-! ## The words -/

theorem ofBits_1024 : Ideal.ofBits .f32 0x44800000#32 = ((1024 : ℝ) : EReal) := by
  simp [Ideal.ofBits, Ideal.ieee, -EReal.coe_mul]; norm_num

theorem ofBits_2048 : Ideal.ofBits .f32 0x45000000#32 = ((2048 : ℝ) : EReal) := by
  simp [Ideal.ofBits, Ideal.ieee, -EReal.coe_mul]; norm_num

theorem ofBits_inv1024 : Ideal.ofBits .f32 0x3A800000#32 = ((1 / 1024 : ℝ) : EReal) := by
  simp [Ideal.ofBits, Ideal.ieee, -EReal.coe_mul]; norm_num

theorem ofBits_inv2048 : Ideal.ofBits .f32 0x3A000000#32 = ((1 / 2048 : ℝ) : EReal) := by
  simp [Ideal.ofBits, Ideal.ieee, -EReal.coe_mul]; norm_num

theorem one_eq : one = ((1 : ℝ) : EReal) := by
  show Ideal.ofBits .f32 0x3F800000#32 = _
  simp [Ideal.ofBits, Ideal.ieee, -EReal.coe_mul]; norm_num

/-- ε is a positive real, at most 1. -/
theorem eps_real : ∃ e : ℝ, 0 < e ∧ e ≤ 1 ∧ eps = (e : EReal) := by
  refine ⟨(9223372 : ℝ) * (2 : ℝ) ^ (-63 : ℤ), by positivity, ?_, ?_⟩
  · rw [zpow_neg, ← div_eq_mul_inv, div_le_one (by positivity)]
    norm_num
  · show Ideal.ofBits .f32 0x2B8CBCCC#32 = _
    simp [Ideal.ofBits, Ideal.ieee, -EReal.coe_mul]

/-! ## Quotients as products -/

theorem simR_eq_simK (x xn : SX.Idx → EReal) : simR x xn = simK x xn := by
  funext i j
  unfold simR simK
  rw [ofBits_1024, ofBits_2048, ofBits_inv1024, ofBits_inv2048,
    Ideal.div_coe (by norm_num : (1024 : ℝ) ≠ 0), Ideal.div_coe (by norm_num : (2048 : ℝ) ≠ 0)]

/-! ## The power -/

theorem pow_eq_exp_log (d : EReal) (hd : 0 ≤ d) (y : ℝ) (hy : 0 < y) :
    Ideal.pow d (y : EReal) = pwK d (y : EReal) := by
  unfold pwK
  induction d using EReal.rec with
  | bot => exact absurd hd (by simp)
  | top =>
    show (if (0 : EReal) < (y : EReal) then (⊤ : EReal) else if (y : EReal) = 0 then 1 else 0) = _
    rw [if_pos (by exact_mod_cast hy)]
    show _ = Ideal.exp ((y : EReal) * ⊤)
    rw [EReal.coe_mul_top_of_pos hy]
    rfl
  | coe r =>
    have hr : 0 ≤ r := by exact_mod_cast hd
    show ((Real.rpow r y : ℝ) : EReal) = Ideal.exp ((y : EReal) * (if r ≤ 0 then (⊥ : EReal) else (Real.log r : EReal)))
    rcases hr.eq_or_lt with h0 | hpos
    · subst h0
      rw [if_pos le_rfl, EReal.coe_mul_bot_of_pos hy]
      show ((Real.rpow 0 y : ℝ) : EReal) = (0 : EReal)
      rw [show Real.rpow 0 y = (0 : ℝ) ^ y from rfl, Real.zero_rpow hy.ne']
      rfl
    · rw [if_neg (not_le.mpr hpos), ← EReal.coe_mul]
      show ((Real.rpow r y : ℝ) : EReal) = ((Real.exp (y * Real.log r) : ℝ) : EReal)
      rw [show Real.rpow r y = r ^ y from rfl, Real.rpow_def_of_pos hpos, mul_comm]

/-- An absolute value is nonnegative. -/
theorem absf_nonneg (x : EReal) : 0 ≤ FloatOps.absf (F := Ideal) (φ := .f32) x := by
  show (0 : EReal) ≤ max x (-x)
  rcases le_total 0 x with h | h
  · exact le_max_of_le_left h
  · exact le_max_of_le_right (by rw [EReal.le_neg]; simpa using h)

/-- With a positive real exponent the two cells agree. -/
theorem cell_pow (s a b : EReal) (y : ℝ) (hy : 0 < y) : cell Ideal.pow s a b (y : EReal) = cell pwK s a b (y : EReal) := by
  unfold cell
  rw [pow_eq_exp_log _ (absf_nonneg (s - a)) y hy, pow_eq_exp_log _ (absf_nonneg (b - s)) y hy]

/-- A value clipped into [ε, 1] is a positive real. -/
theorem clip_real (q : EReal) : ∃ r : ℝ, 0 < r ∧ min one (max eps q) = (r : EReal) := by
  obtain ⟨e, he0, he1, hee⟩ := eps_real
  have h1 : min one (max eps q) ≤ ((1 : ℝ) : EReal) := one_eq ▸ min_le_left _ _
  have h2 : ((e : ℝ) : EReal) ≤ min one (max eps q) := by
    rw [← hee]
    refine le_min ?_ (le_max_left _ _)
    rw [one_eq, hee]; exact_mod_cast he1
  have hnt : min one (max eps q) ≠ ⊤ := ne_top_of_le_ne_top (EReal.coe_ne_top 1) h1
  have hnb : min one (max eps q) ≠ ⊥ := ne_bot_of_le_ne_bot (EReal.coe_ne_bot e) h2
  refine ⟨(min one (max eps q)).toReal, ?_, (EReal.coe_toReal hnt hnb).symm⟩
  have : ((e : ℝ) : EReal) ≤ (((min one (max eps q)).toReal : ℝ) : EReal) := by rwa [EReal.coe_toReal hnt hnb]
  exact lt_of_lt_of_le he0 (by exact_mod_cast this)

/-- The exponent of a row whose n₀ is a positive real is a positive real. -/
theorem expo_real (P : SP.Idx → EReal) (i : Fin 8192) (r : ℝ) (hr : 0 < r) (hP : P (ix2 i 2) = (r : EReal)) :
    expo P i = ((1 / r : ℝ) : EReal) := by
  unfold expo
  rw [hP, Ideal.div_coe hr.ne', one_eq, ← EReal.coe_mul, one_mul]

/-- The quotient-and-power form is the product-and-exp-log form once every row's n₀ is a positive real. -/
theorem scoreR_eq_scoreK (x xn : SX.Idx → EReal) (P : SP.Idx → EReal)
    (hP : ∀ i : Fin 8192, ∃ r : ℝ, 0 < r ∧ P (ix2 i 2) = (r : EReal)) : scoreR x xn P = scoreK x xn P := by
  unfold scoreR scoreK
  rw [simR_eq_simK]
  funext y
  unfold scoreOf
  obtain ⟨r, hr, hPr⟩ := hP (y 0)
  rw [expo_real P (y 0) r hr hPr]
  exact cell_pow _ _ _ _ (by positivity)

end Cert.Bridge

end
-- ==== Proof.ParamsBridge.lean ====
/-
  The clipped parameters, the same array in both programs.

  Both programs compute the [8192, 3] array of row parameters by the same operations on x, W and the bias:
  the matrix product with the transposed W, plus the bias spread over the rows, through 1 / (1 + exp (-·)), and
  clipped into [ε, 1] as min 1 (max ε ·). The two spellings differ only in which program's names carry the shapes
  and the dimension numbers, so one program's array after its two stretches of host operations is the other's
  composed term. Every entry of the clipped array is a positive real, whatever was clipped.
-/
import proofs.«153212_j9964324127268_2_alg».proof.Proof.Gen.KernelIdeal.Frame
import proofs.«153212_j9964324127268_2_alg».proof.Proof.Gen.ReferenceIdeal.Read
import proofs.«153212_j9964324127268_2_alg».proof.Proof.PowLaw
import Idealize.ShloMosaic.Lib.StableHlo.Run
import Idealize.ShloMosaic.Lib.ValueIdx
import Idealize.ShloMosaic.Lib.Pipeline.Value

noncomputable section

open Idealize.ShloMosaic Idealize.ShloMosaic.TcCoe Idealize.SL.Sem Idealize.ShloMosaic.StableHlo

namespace Cert.Bridge.Params

/-- From any buffer contents, the first program's clipped parameters after its fifteen operations and the six of the
    clip are the second program's composed term of x, W and the bias found in those contents. -/
theorem clipped_eq (Wp : Idealize.ShloMosaic.Valuation Cert.KernelIdeal.τ Cert.KernelIdeal.sig (Elt Ideal)) :
    StableHlo.after (Cert.KernelIdeal.Gen.hostOps0_1 (F := Ideal))
        (StableHlo.after (Cert.KernelIdeal.Gen.hostOps0 (F := Ideal)) Wp) (Proc.devRef .tc Cert.KernelIdeal.main_v11)
      = Cert.ReferenceIdeal.Read.val_main_v11 (F := Ideal) (Wp (Proc.devRef .tc Cert.KernelIdeal.main_arg0))
          (Wp (Proc.devRef .tc Cert.KernelIdeal.main_arg2)) (Wp (Proc.devRef .tc Cert.KernelIdeal.main_arg3)) := by
  after_results
  rfl

/-- An entry of the clipped array is min 1 (max ε q) of the entry q of the array before the clip. -/
theorem clipped_apply (x0 : (⟨Cert.ReferenceIdeal.S8192x1024, .f32⟩ : BufTy).Contents (Elt Ideal))
    (x2 : (⟨Cert.ReferenceIdeal.S3x1024, .f32⟩ : BufTy).Contents (Elt Ideal))
    (x3 : (⟨Cert.ReferenceIdeal.S3, .f32⟩ : BufTy).Contents (Elt Ideal)) (j : Cert.ReferenceIdeal.S8192x3.Idx) :
    Cert.ReferenceIdeal.Read.val_main_v11 (F := Ideal) x0 x2 x3 j
      = min Cert.Bridge.one (max Cert.Bridge.eps (Cert.ReferenceIdeal.Read.val_main_v10 (F := Ideal) x0 x2 x3 j)) := by
  rw [Cert.ReferenceIdeal.Read.val_main_v11_apply, Cert.ReferenceIdeal.Read.val_main_call0_v4_apply,
    Cert.ReferenceIdeal.Read.val_main_call0_v3_apply, Cert.ReferenceIdeal.Read.val_main_call0_v2_apply,
    Cert.ReferenceIdeal.Read.val_main_call0_v1_apply, Cert.ReferenceIdeal.Read.val_main_call0_v0_apply]
  rfl

/-- The third clipped parameter of every row (the one the exponent is the reciprocal of) is a positive real. -/
theorem clipped_pos (x0 : (⟨Cert.ReferenceIdeal.S8192x1024, .f32⟩ : BufTy).Contents (Elt Ideal))
    (x2 : (⟨Cert.ReferenceIdeal.S3x1024, .f32⟩ : BufTy).Contents (Elt Ideal))
    (x3 : (⟨Cert.ReferenceIdeal.S3, .f32⟩ : BufTy).Contents (Elt Ideal)) (i : Fin 8192) :
    ∃ r : ℝ, 0 < r ∧ Cert.ReferenceIdeal.Read.val_main_v11 (F := Ideal) x0 x2 x3
      (Idealize.ShloMosaic.ValueIdx.ix2 i (2 : Fin 3)) = (r : EReal) := by
  rw [clipped_apply]
  exact Cert.Bridge.clip_real _

end Cert.Bridge.Params

end
-- ==== Proof.lean ====
/-
  The scoring kernel against its reference.

  Inputs: x, x_n : f32[8192, 1024], W : f32[3, 1024], bias : f32[3]. Both programs clip sigmoid(x Wᵀ + bias) into
  [ε, 1] — the parameters P, three per row: a₀, b₀, n₀ — and form the normalised similarity
      sim i j = ((∑ₖ x[i,k]·x_n[j,k]) / 1024 + 1024) / 2048,
  its row maxima, the thresholds a = min a₀ (row maximum) - ε and b = a₀ + b₀·(1 - a₀), the exponent n = 1 / n₀, and the
  score: 1 where sim > b, else 0 where sim < a, else u / (u + v) with u = max (|sim - a| ^ n) ε, v = max (|b - sim| ^ n) ε.

  The kernel program computes this in two grid computations over 1024 × 1024 tiles with host operations around them.
  The first keeps, for each block of 1024 rows, the running maximum of the similarity over the eight column blocks, from
  -∞: the row maxima. The host then forms a. The second recomputes each similarity tile and scores it. It scales by
  the products with 2⁻¹⁰ and 2⁻¹¹ where the reference divides by 1024 and 2048, and takes the power as exp (n · log d)
  where the reference applies the power function.

  Over the extended reals the two results are equal entry by entry, for every input:
    * a quotient by 1024 or 2048 is the product with 2⁻¹⁰ or 2⁻¹¹ on every extended real;
    * a maximum folded block by block from -∞ is the maximum over the whole row;
    * for d ≥ 0 and a real y > 0, d ^ y = exp (y · log d) — and |·| ≥ 0, while 1 / n₀ is a positive real because the
      clip puts n₀ in [ε, 1] whatever the sigmoid was;
    * the parameters P are the same operations of the same arguments in both programs.
  No hypothesis on the inputs is used. The idealization rewrote nothing, so there is nothing to preserve.
-/
import proofs.«153212_j9964324127268_2_alg».proof.Defs
import proofs.«153212_j9964324127268_2_alg».proof.Proof.Gen.Kernel
import proofs.«153212_j9964324127268_2_alg».proof.Proof.Gen.Kernel.Skeleton
import proofs.«153212_j9964324127268_2_alg».proof.Proof.Gen.Kernel.Launch
import proofs.«153212_j9964324127268_2_alg».proof.Proof.Gen.Kernel.Points
import proofs.«153212_j9964324127268_2_alg».proof.Proof.Gen.Kernel.Frame
import proofs.«153212_j9964324127268_2_alg».proof.Proof.Gen.KernelIdeal
import proofs.«153212_j9964324127268_2_alg».proof.Proof.Gen.KernelIdeal.Skeleton
import proofs.«153212_j9964324127268_2_alg».proof.Proof.Gen.KernelIdeal.Launch
import proofs.«153212_j9964324127268_2_alg».proof.Proof.Gen.KernelIdeal.Points
import proofs.«153212_j9964324127268_2_alg».proof.Proof.Gen.KernelIdeal.Frame
import proofs.«153212_j9964324127268_2_alg».proof.Proof.Gen.ReferenceIdeal
import proofs.«153212_j9964324127268_2_alg».proof.Proof.Gen.Pre_finite_inputs
import proofs.«153212_j9964324127268_2_alg».proof.Proof.Gen.ReferenceIdeal.Run
import proofs.«153212_j9964324127268_2_alg».proof.Proof.Gen.ReferenceIdeal.Read
import proofs.«153212_j9964324127268_2_alg».proof.Proof.KernelValue
import proofs.«153212_j9964324127268_2_alg».proof.Proof.RefScore
import proofs.«153212_j9964324127268_2_alg».proof.Proof.ParamsBridge
import proofs.«153212_j9964324127268_2_alg».proof.Proof.PowLaw
import Idealize.ShloMosaic.Adequacy
import Idealize.ShloMosaic.Init

noncomputable section

namespace Cert.Proof

open Idealize.ShloMosaic Idealize.SL.Sem

/-- The clipped parameters the kernel program's host computes are the reference's term of the same arguments. -/
theorem params_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Entry.params m ρ c
      = Cert.ReferenceIdeal.Read.val_main_v11 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) :=
  Cert.Bridge.Params.clipped_eq (Cert.KernelIdeal.Gen.W0 m ρ c)

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end at the same score: the kernel program's in
    product-and-exp-log form, the reference's in quotient-and-power form, one function of x, x_n and the shared
    clipped parameters. -/
theorem algebraic : Cert.algebraic_KernelIdeal_ReferenceIdeal := by
  intro m ρ m' ρ' _ hagree
  refine ⟨_, Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v55_eq, Cert.ReferenceIdeal.RefValue.ref_eq,
    (hagree c).1, (hagree c).2.1, (hagree c).2.2.1, (hagree c).2.2.2,
    Cert.Bridge.scoreR_eq_scoreK _ _ _ (fun i => Cert.Bridge.Params.clipped_pos _ _ _ i), ← params_eq m ρ c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
